-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S800000 : Shape := ⟨1, ![800000]⟩
abbrev S300x600 : Shape := ⟨2, ![300, 600]⟩
abbrev S300 : Shape := ⟨1, ![300]⟩
abbrev S300x300 : Shape := ⟨2, ![300, 300]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_

variable [Facts]

def fn_part1 {F : FTy → Type} [FloatOps F] (main_arg6 : FVec F S300 .f32) (main_arg7 : FVec F S300x300 .f32) (main_arg8 : FVec F S300 .f32) (main_v13 : IVec S_ 1) (main_v16 : IVec S300x600 1) : IVec S_ 1 :=
  let main_c_5 : IVec S_ 1 := constantI S_ 1 1#1
  let main_v17 : IVec S_ 1 := (fun x v => Host.reduce IntOp.andi x v reducesTo_S300x600_S_d0_1 h_S_) main_v16 main_c_5
  let main_v18 : IVec S_ 1 := andi main_v13 main_v17
  let main_v19 : FVec F S300 .f32 := Host.absf main_arg6
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x300 .f32 := Host.absf main_arg7
  let main_cst_8 : FVec F S_ .f32 := constant S_ .f32 0x7F800000#32
  let main_v25 : FVec F S300x300 .f32 := broadcastInDim S300x300 ![] bcast_S_S300x300 main_cst_8
  let main_v26 : IVec S300x300 1 := cmpf .olt main_v24 main_v25
  let main_c_9 : IVec S_ 1 := constantI S_ 1 1#1
  let main_v27 : IVec S_ 1 := (fun x v => Host.reduce IntOp.andi x v reducesTo_S300x300_S_d0_1 h_S_) main_v26 main_c_9
  let main_v28 : IVec S_ 1 := andi main_v23 main_v27
  let main_v29 : FVec F S300 .f32 := Host.absf main_arg8
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  main_v33

def fn {F : FTy → Type} [FloatOps F] (main_arg0 : FVec F S50000x300 .f32) (main_arg1 : IVec S800000 32) (main_arg2 : IVec S800000 32) (main_arg3 : FVec F S300x600 .f32) (main_arg4 : FVec F S300 .f32) (main_arg5 : FVec F S300x600 .f32) (main_arg6 : FVec F S300 .f32) (main_arg7 : FVec F S300x300 .f32) (main_arg8 : FVec F S300 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x600 .f32 := Host.absf main_arg3
  let main_cst_0 : FVec F S_ .f32 := constant S_ .f32 0x7F800000#32
  let main_v5 : FVec F S300x600 .f32 := broadcastInDim S300x600 ![] bcast_S_S300x600 main_cst_0
  let main_v6 : IVec S300x600 1 := cmpf .olt main_v4 main_v5
  let main_c_1 : IVec S_ 1 := constantI S_ 1 1#1
  let main_v7 : IVec S_ 1 := (fun x v => Host.reduce IntOp.andi x v reducesTo_S300x600_S_d0_1 h_S_) main_v6 main_c_1
  let main_v8 : IVec S_ 1 := andi main_v3 main_v7
  let main_v9 : FVec F S300 .f32 := Host.absf main_arg4
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x600 .f32 := Host.absf main_arg5
  let main_cst_4 : FVec F S_ .f32 := constant S_ .f32 0x7F800000#32
  let main_v15 : FVec F S300x600 .f32 := broadcastInDim S300x600 ![] bcast_S_S300x600 main_cst_4
  let main_v16 : IVec S300x600 1 := cmpf .olt main_v14 main_v15
  fn_part1 (F := F) main_arg6 main_arg7 main_arg8 main_v13 main_v16
-- ==== Kernel.lean ====
abbrev S50000x300 : Shape := ⟨2, ![50000, 300]⟩
abbrev S800000 : Shape := ⟨1, ![800000]⟩
abbrev S300x600 : Shape := ⟨2, ![300, 600]⟩
abbrev S300 : Shape := ⟨1, ![300]⟩
abbrev S300x300 : Shape := ⟨2, ![300, 300]⟩
abbrev S_ : Shape := ⟨0, ![]⟩
abbrev S800000x1 : Shape := ⟨2, ![800000, 1]⟩
abbrev S800000x300 : Shape := ⟨2, ![800000, 300]⟩
abbrev S1x300 : Shape := ⟨2, ![1, 300]⟩
abbrev S5000x300 : Shape := ⟨2, ![5000, 300]⟩

abbrev nBuf : Space → Nat
  | .hbm => 56
  | .vmem => 24
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S300x600, .f32⟩
  | .hbm, ⟨4, _⟩ => ⟨S300, .f32⟩
  | .hbm, ⟨5, _⟩ => ⟨S300x600, .f32⟩
  | .hbm, ⟨6, _⟩ => ⟨S300, .f32⟩
  | .hbm, ⟨7, _⟩ => ⟨S300x300, .f32⟩
  | .hbm, ⟨8, _⟩ => ⟨S300, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x300, .f32⟩
  | .hbm, ⟨18, _⟩ => ⟨S_, .f32⟩
  | .hbm, ⟨19, _⟩ => ⟨S50000x300, .f32⟩
  | .hbm, ⟨20, _⟩ => ⟨S800000x1, .i32⟩
  | .hbm, ⟨21, _⟩ => ⟨S50000x300, .f32⟩
  | .hbm, ⟨22, _⟩ => ⟨S300x300, .f32⟩
  | .hbm, ⟨23, _⟩ => ⟨S300x300, .f32⟩
  | .hbm, ⟨24, _⟩ => ⟨S300x300, .f32⟩
  | .hbm, ⟨25, _⟩ => ⟨S300x300, .f32⟩
  | .hbm, ⟨26, _⟩ => ⟨S1x300, .f32⟩
  | .hbm, ⟨27, _⟩ => ⟨S50000x300, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x300, .f32⟩
  | .hbm, ⟨37, _⟩ => ⟨S_, .f32⟩
  | .hbm, ⟨38, _⟩ => ⟨S50000x300, .f32⟩
  | .hbm, ⟨39, _⟩ => ⟨S800000x1, .i32⟩
  | .hbm, ⟨40, _⟩ => ⟨S50000x300, .f32⟩
  | .hbm, ⟨41, _⟩ => ⟨S300x300, .f32⟩
  | .hbm, ⟨42, _⟩ => ⟨S300x300, .f32⟩
  | .hbm, ⟨43, _⟩ => ⟨S300x300, .f32⟩
  | .hbm, ⟨44, _⟩ => ⟨S300x300, .f32⟩
  | .hbm, ⟨45, _⟩ => ⟨S1x300, .f32⟩
  | .hbm, ⟨46, _⟩ => ⟨S50000x300, .f32⟩
  | .hbm, ⟨47, _⟩ => ⟨S300x300, .f32⟩
  | .hbm, ⟨48, _⟩ => ⟨S1x300, .f32⟩
  | .hbm, ⟨49, _⟩ => ⟨S50000x300, .f32⟩
  | .hbm, ⟨50, _⟩ => ⟨S50000x300, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S50000x300, .f32⟩
  | .hbm, ⟨55, _⟩ => ⟨S50000x300, .f32⟩
  | .local _ .vmem, ⟨0, _⟩ => ⟨S5000x300, .f32⟩
  | .local _ .vmem, ⟨1, _⟩ => ⟨S5000x300, .f32⟩
  | .local _ .vmem, ⟨2, _⟩ => ⟨S5000x300, .f32⟩
  | .local _ .vmem, ⟨3, _⟩ => ⟨S5000x300, .f32⟩
  | .local _ .vmem, ⟨4, _⟩ => ⟨S300x300, .f32⟩
  | .local _ .vmem, ⟨5, _⟩ => ⟨S300x300, .f32⟩
  | .local _ .vmem, ⟨6, _⟩ => ⟨S1x300, .f32⟩
  | .local _ .vmem, ⟨7, _⟩ => ⟨S5000x300, .f32⟩
  | .local _ .vmem, ⟨8, _⟩ => ⟨S5000x300, .f32⟩
  | .local _ .vmem, ⟨9, _⟩ => ⟨S5000x300, .f32⟩
  | .local _ .vmem, ⟨10, _⟩ => ⟨S5000x300, .f32⟩
  | .local _ .vmem, ⟨11, _⟩ => ⟨S5000x300, .f32⟩
  | .local _ .vmem, ⟨12, _⟩ => ⟨S5000x300, .f32⟩
  | .local _ .vmem, ⟨13, _⟩ => ⟨S300x300, .f32⟩
  | .local _ .vmem, ⟨14, _⟩ => ⟨S300x300, .f32⟩
  | .local _ .vmem, ⟨15, _⟩ => ⟨S1x300, .f32⟩
  | .local _ .vmem, ⟨16, _⟩ => ⟨S5000x300, .f32⟩
  | .local _ .vmem, ⟨17, _⟩ => ⟨S5000x300, .f32⟩
  | .local _ .vmem, ⟨18, _⟩ => ⟨S5000x300, .f32⟩
  | .local _ .vmem, ⟨19, _⟩ => ⟨S5000x300, .f32⟩
  | .local _ .vmem, ⟨20, _⟩ => ⟨S300x300, .f32⟩
  | .local _ .vmem, ⟨21, _⟩ => ⟨S1x300, .f32⟩
  | .local _ .vmem, ⟨22, _⟩ => ⟨S5000x300, .f32⟩
  | .local _ .vmem, ⟨23, _⟩ => ⟨S5000x300, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x300 : S_.BroadcastsInDim S50000x300 (![] : Fin 0 → Fin S50000x300.rank)
  slices_S300x600_S300x300_0_0 : S300x600.Slices ![0, 0] S300x300
  transposes_S300x300_S300x300_1_0 : S300x300.Transposes [1, 0] S300x300
  slices_S300x600_S300x300_0_300 : S300x600.Slices ![0, 300] S300x300
  shapeCasts_S300_S1x300 : S300.ShapeCasts S1x300
  inb_S5000x300_S5000x300_0_0 : ∀ a, (![0, 0] : Fin 2 → Nat) a + S5000x300.size a ≤ S5000x300.size a
  h_S5000x300 : 0 < S5000x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  shapeCasts_S5000x300_S5000x300 : S5000x300.ShapeCasts S5000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S5000x300 : S1x300.Broadcasts S5000x300
  reducesTo_S50000x300_S_d0_1 : S50000x300.ReducesTo [0, 1] S_
  h_S_ : 0 < S_.numel
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S5000x300_S300x300_S5000x300_1_0_0_1_n_n_wf : DotDims.WF S5000x300 S300x300 S5000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S50000x300.size a
  hwx0_0 : ∀ i : grid0.Coords, EltTy.bits .f32 = 32 ∨ (Rect.block (s := S50000x300) S5000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x300.size a ≤ S50000x300.size a
  hwx0_1 : ∀ i : grid0.Coords, EltTy.bits .f32 = 32 ∨ (Rect.block (s := S50000x300) S5000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x300.size a ≤ S300x300.size a
  hwx0_2 : ∀ i : grid0.Coords, EltTy.bits .f32 = 32 ∨ (Rect.block (s := S300x300) S300x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x300.size a ≤ S300x300.size a
  hwx0_3 : ∀ i : grid0.Coords, EltTy.bits .f32 = 32 ∨ (Rect.block (s := S300x300) S300x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x300.size a ≤ S50000x300.size a
  hwx0_5 : ∀ i : grid0.Coords, EltTy.bits .f32 = 32 ∨ (Rect.block (s := S50000x300) S5000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S50000x300.size a
  hwx1_0 : ∀ i : grid1.Coords, EltTy.bits .f32 = 32 ∨ (Rect.block (s := S50000x300) S5000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x300.size a ≤ S50000x300.size a
  hwx1_1 : ∀ i : grid1.Coords, EltTy.bits .f32 = 32 ∨ (Rect.block (s := S50000x300) S5000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .f32 = 32 ∨ (Rect.block (s := S300x300) S300x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x300.size a ≤ S50000x300.size a
  hwx1_5 : ∀ i : grid1.Coords, EltTy.bits .f32 = 32 ∨ (Rect.block (s := S50000x300) S5000x300.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x300.size a ≤ S50000x300.size a
  hwx2_0 : ∀ i : grid2.Coords, EltTy.bits .f32 = 32 ∨ (Rect.block (s := S50000x300) S5000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x300.size a ≤ S50000x300.size a
  hwx2_3 : ∀ i : grid2.Coords, EltTy.bits .f32 = 32 ∨ (Rect.block (s := S50000x300) S5000x300.size (cc2_transform_3 i) (hinb2_3 i)).WholeWords (EltTy.packing .f32)

variable [Facts₀]

def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S5000x300_S300x300_S5000x300_1_0_0_1_n_n : DotDims S5000x300 S300x300 S5000x300 where
  lhsContracting := [1]
  rhsContracting := [0]
  lhsNonContracting := [0]
  rhsNonContracting := [1]
  lhsBatch := []
  rhsBatch := []
  wf := dot_S5000x300_S300x300_S5000x300_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S300x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x300 : Shape := ⟨2, ![50000, 300]⟩
abbrev S800000 : Shape := ⟨1, ![800000]⟩
abbrev S300x600 : Shape := ⟨2, ![300, 600]⟩
abbrev S300 : Shape := ⟨1, ![300]⟩
abbrev S300x300 : Shape := ⟨2, ![300, 300]⟩
abbrev S_ : Shape := ⟨0, ![]⟩
abbrev S800000x1 : Shape := ⟨2, ![800000, 1]⟩
abbrev S800000x300 : Shape := ⟨2, ![800000, 300]⟩
abbrev S50000x600 : Shape := ⟨2, ![50000, 600]⟩
abbrev S600x300 : Shape := ⟨2, ![600, 300]⟩
abbrev S1x300 : Shape := ⟨2, ![1, 300]⟩

abbrev nBuf : Space → Nat
  | .hbm => 67
  | .vmem => 0
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S300x600, .f32⟩
  | .hbm, ⟨4, _⟩ => ⟨S300, .f32⟩
  | .hbm, ⟨5, _⟩ => ⟨S300x600, .f32⟩
  | .hbm, ⟨6, _⟩ => ⟨S300, .f32⟩
  | .hbm, ⟨7, _⟩ => ⟨S300x300, .f32⟩
  | .hbm, ⟨8, _⟩ => ⟨S300, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x300, .f32⟩
  | .hbm, ⟨18, _⟩ => ⟨S_, .f32⟩
  | .hbm, ⟨19, _⟩ => ⟨S50000x300, .f32⟩
  | .hbm, ⟨20, _⟩ => ⟨S800000x1, .i32⟩
  | .hbm, ⟨21, _⟩ => ⟨S50000x300, .f32⟩
  | .hbm, ⟨22, _⟩ => ⟨S50000x600, .f32⟩
  | .hbm, ⟨23, _⟩ => ⟨S600x300, .f32⟩
  | .hbm, ⟨24, _⟩ => ⟨S50000x300, .f32⟩
  | .hbm, ⟨25, _⟩ => ⟨S1x300, .f32⟩
  | .hbm, ⟨26, _⟩ => ⟨S50000x300, .f32⟩
  | .hbm, ⟨27, _⟩ => ⟨S50000x300, .f32⟩
  | .hbm, ⟨28, _⟩ => ⟨S_, .f32⟩
  | .hbm, ⟨29, _⟩ => ⟨S_, .f32⟩
  | .hbm, ⟨30, _⟩ => ⟨S50000x300, .f32⟩
  | .hbm, ⟨31, _⟩ => ⟨S50000x300, .i1⟩
  | .hbm, ⟨32, _⟩ => ⟨S_, .f32⟩
  | .hbm, ⟨33, _⟩ => ⟨S50000x300, .f32⟩
  | .hbm, ⟨34, _⟩ => ⟨S50000x300, .f32⟩
  | .hbm, ⟨35, _⟩ => ⟨S50000x300, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x300, .f32⟩
  | .hbm, ⟨45, _⟩ => ⟨S_, .f32⟩
  | .hbm, ⟨46, _⟩ => ⟨S50000x300, .f32⟩
  | .hbm, ⟨47, _⟩ => ⟨S800000x1, .i32⟩
  | .hbm, ⟨48, _⟩ => ⟨S50000x300, .f32⟩
  | .hbm, ⟨49, _⟩ => ⟨S50000x600, .f32⟩
  | .hbm, ⟨50, _⟩ => ⟨S600x300, .f32⟩
  | .hbm, ⟨51, _⟩ => ⟨S50000x300, .f32⟩
  | .hbm, ⟨52, _⟩ => ⟨S1x300, .f32⟩
  | .hbm, ⟨53, _⟩ => ⟨S50000x300, .f32⟩
  | .hbm, ⟨54, _⟩ => ⟨S50000x300, .f32⟩
  | .hbm, ⟨55, _⟩ => ⟨S300x300, .f32⟩
  | .hbm, ⟨56, _⟩ => ⟨S50000x300, .f32⟩
  | .hbm, ⟨57, _⟩ => ⟨S1x300, .f32⟩
  | .hbm, ⟨58, _⟩ => ⟨S50000x300, .f32⟩
  | .hbm, ⟨59, _⟩ => ⟨S50000x300, .f32⟩
  | .hbm, ⟨60, _⟩ => ⟨S50000x300, .f32⟩
  | .hbm, ⟨61, _⟩ => ⟨S50000x300, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S50000x300, .f32⟩
  | .hbm, ⟨66, _⟩ => ⟨S50000x300, .f32⟩
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_cst : Ref sig .tc := ⟨.hbm, 62, rfl⟩
abbrev main_call1_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x300 : S_.BroadcastsInDim S50000x300 (![] : Fin 0 → Fin S50000x300.rank)
  concatenates_S50000x300_S50000x300_S50000x600_d1 : Shape.Concatenates [S50000x300, S50000x300] S50000x600 1
  transposes_S300x600_S600x300_1_0 : S300x600.Transposes [1, 0] S600x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  transposes_S300x300_S300x300_1_0 : S300x300.Transposes [1, 0] S300x300
  reducesTo_S50000x300_S_d0_1 : S50000x300.ReducesTo [0, 1] S_
  h_S_ : 0 < S_.numel
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x600_S600x300_S50000x300_1_0_0_1_n_n_wf : DotDims.WF S50000x600 S600x300 S50000x300 [1] [0] [0] [1] [] []
  dot_S50000x300_S300x300_S50000x300_1_0_0_1_n_n_wf : DotDims.WF S50000x300 S300x300 S50000x300 [1] [0] [0] [1] [] []

variable [Facts₀]

def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x600_S600x300_S50000x300_1_0_0_1_n_n : DotDims S50000x600 S600x300 S50000x300 where
  lhsContracting := [1]
  rhsContracting := [0]
  lhsNonContracting := [0]
  rhsNonContracting := [1]
  lhsBatch := []
  rhsBatch := []
  wf := dot_S50000x600_S600x300_S50000x300_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf

class Facts : Prop extends Facts₀ where

variable [Facts]
-- ==== Proof.KerRun.lean ====
/-
  The kernel program's run with every buffer named. From any memory, every weakly fair execution of its @main — four
  stretches of host operations around three launches — terminates without a fault, and each buffer that outlives the
  launches ends at the contents the chain of boundaries gives it: the host stretches applied in order, each launch's
  arrays at what its write-backs leave. In particular the result buffer ends at the last boundary's contents of it,
  and the nine arguments end as launched.
-/
import proofs.«118399_j1486058684815_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer ends at the last boundary's contents of it, and the arguments end as launched. -/
theorem run : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)
    (run_all m ρ)

end Cert.KernelIdeal.KerRun

end
-- ==== Proof.Spec.lean ====
/-
  The function both programs compute, entry by entry, over the extended reals.

  A graph layer sends node features x (one row of 300 numbers per node) to
      row p, column q  ↦  Σ_{k<300} x[p,k]·W[q,k]  +  Σ_{k<300} A(x)[p,k]·W[q,300+k]  +  b[q],
  where A is the neighbour aggregation (a gather of source rows summed into destination rows) and W is a
  300 × 600 weight matrix whose left half multiplies the node's own features and whose right half multiplies the
  aggregate. The network is: layer 1 followed by the leaky rectifier, layer 2, then a dense 300 × 300 layer
  followed by tanh. The aggregation enters only as a function from arrays to arrays: nothing here depends on what
  it is.

  One arrangement multiplies the row (x[p,·], A(x)[p,·]) of length 600 by W in a single sum over 600 terms; the other
  forms the two sums over 300 terms separately and adds them. The two agree because a sum over 600 = 300 + 300 indices
  splits into the sums over its two halves (`sum600`), which needs only that addition on the extended reals is
  commutative and associative.
-/
import Idealize.ShloMosaic.PureOps.Ideal
import Idealize.ShloMosaic.Lib.ValueIdx

noncomputable section

open scoped BigOperators

namespace Cert.Gcn

open Idealize.ShloMosaic Idealize.ShloMosaic.ValueIdx

/-- Node features: 50000 nodes, 300 numbers each. -/
abbrev SN : Shape := ⟨2, ![50000, 300]⟩
/-- A layer's weights: 300 outputs, 600 = 300 + 300 inputs. -/
abbrev SW : Shape := ⟨2, ![300, 600]⟩
/-- The dense layer's weights. -/
abbrev SQ : Shape := ⟨2, ![300, 300]⟩
/-- A bias. -/
abbrev SV : Shape := ⟨1, ![300]⟩

/-- Column k of the left half of a 600-wide row. -/
def lo (k : Fin 300) : Fin 600 := ⟨k.val, by omega⟩
/-- Column k of the right half of a 600-wide row. -/
def hi (k : Fin 300) : Fin 600 := ⟨300 + k.val, by omega⟩

/-- One entry of a layer before its activation: the node's own row against one half of a weight row, the aggregated
    row against the other half, plus the bias. -/
def linAt (xr ar wa wb : Fin 300 → EReal) (b : EReal) : EReal := (∑ k, xr k * wa k + ∑ k, ar k * wb k) + b

/-- One entry of the dense layer before its activation. -/
def denseAt (xr w : Fin 300 → EReal) (b : EReal) : EReal := (∑ k, xr k * w k) + b

/-- The leaky rectifier on one extended real: h where h ≥ 0, otherwise the slope's literal times h. -/
def lrelu1 (h : EReal) : EReal :=
  Scalar.select (FloatOps.cmpf (F := Ideal) (φ := .f32) .oge h (Ideal.ofBits .f32 0x00000000#32)) h (Ideal.ofBits .f32 0x3C23D70A#32 * h)

/-- Entry (p, q) of a layer before its activation, from the original arrays. -/
def layerAt (agg : (SN.Idx → EReal) → SN.Idx → EReal) (x : SN.Idx → EReal) (W : SW.Idx → EReal) (b : SV.Idx → EReal)
    (p : Fin 50000) (q : Fin 300) : EReal :=
  linAt (fun k => x (ix2 p k)) (fun k => agg x (ix2 p k)) (fun k => W (ix2 q (lo k))) (fun k => W (ix2 q (hi k))) (b (ix1 q))

/-- Layer 1 with the leaky rectifier. -/
def H1 (agg : (SN.Idx → EReal) → SN.Idx → EReal) (x : SN.Idx → EReal) (W : SW.Idx → EReal) (b : SV.Idx → EReal) : SN.Idx → EReal :=
  fun i => lrelu1 (layerAt agg x W b (i 0) (i 1))

/-- Layer 2 (no activation). -/
def H2 (agg : (SN.Idx → EReal) → SN.Idx → EReal) (x : SN.Idx → EReal) (W : SW.Idx → EReal) (b : SV.Idx → EReal) : SN.Idx → EReal :=
  fun i => layerAt agg x W b (i 0) (i 1)

/-- The dense layer with tanh. -/
def H3 (x : SN.Idx → EReal) (W : SQ.Idx → EReal) (b : SV.Idx → EReal) : SN.Idx → EReal :=
  fun i => Ideal.tanh (denseAt (fun k => x (ix2 (i 0) k)) (fun k => W (ix2 (i 1) k)) (b (ix1 (i 1))))

/-- The three layers composed. -/
def net (agg : (SN.Idx → EReal) → SN.Idx → EReal) (x : SN.Idx → EReal) (W1 : SW.Idx → EReal) (b1 : SV.Idx → EReal)
    (W2 : SW.Idx → EReal) (b2 : SV.Idx → EReal) (W3 : SQ.Idx → EReal) (b3 : SV.Idx → EReal) : SN.Idx → EReal :=
  H3 (H2 agg (H1 agg x W1 b1) W2 b2) W3 b3

/-- A sum over 600 indices is the sum over its first 300 plus the sum over its last 300. -/
theorem sum600 {α : Type} [AddCommMonoid α] (f : Fin 600 → α) : ∑ k : Fin 600, f k = ∑ k : Fin 300, f (lo k) + ∑ k : Fin 300, f (hi k) := by
  have h := Fin.sum_univ_add (a := 300) (b := 300) f
  exact h

end Cert.Gcn

end
-- ==== Proof.KerStages.lean ====
/-
  The host operations the kernel's program applies around its three launches, as whole-array terms at the extended
  reals: the neighbour aggregation (`agg`: negative source indices repaired, source rows gathered and summed into
  destination rows), the two transposed halves of a layer's weights (`waT` the left 300 columns, `wbT` the right
  300), a bias as a one-row matrix (`brow`), the transposed dense weights (`wT`), and the closing normalisation
  (`tail`: an array divided by the square root of the sum of its squares).
-/
import proofs.«118399_j1486058684815_1_alg».proof.Proof.Gen.KernelIdeal
import proofs.«118399_j1486058684815_1_alg».proof.Proof.Spec

noncomputable section

namespace Cert.KernelIdeal.Stages

open Idealize.ShloMosaic Cert.KernelIdeal Cert.KernelIdeal.Facts₀

/-- A float array of shape `s` at the extended reals. -/
abbrev TF (s : Shape) : Type := FVec Ideal s .f32
/-- A 32-bit integer array of shape `s`. -/
abbrev TI (s : Shape) : Type := IVec s 32

/-- Source indices with a negative index wrapped by the node count, as a column. -/
def fixIdx (src : TI S800000) : TI S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour aggregation: source rows gathered, then summed into their destination rows from zero. -/
def agg (src dst : TI S800000) (x : TF S50000x300) : TF S50000x300 :=
  Host.scatterAdd scatter_S50000x300_S800000x1_S800000x300_1_0_0_1
    (broadcastInDim S50000x300 ![] bcast_S_S50000x300 (constant S_ .f32 0x00000000#32))
    (broadcastInDim S800000x1 ![0] bcast_S800000_S800000x1_0 dst)
    (Host.gather gather_S50000x300_S800000x1_S800000x300_1_0_n_n_0_1_1300 x (fixIdx src))

/-- The left half of a layer's weights, transposed: entry (k, q) is W[q, k]. -/
def waT (W : TF S300x600) : TF S300x300 :=
  transpose S300x300 [1, 0] (extractStridedSlice S300x300 ![0, 0] W slices_S300x600_S300x300_0_0) transposes_S300x300_S300x300_1_0

/-- The right half of a layer's weights, transposed: entry (k, q) is W[q, 300 + k]. -/
def wbT (W : TF S300x600) : TF S300x300 :=
  transpose S300x300 [1, 0] (extractStridedSlice S300x300 ![0, 300] W slices_S300x600_S300x300_0_300) transposes_S300x300_S300x300_1_0

/-- A bias as a one-row matrix. -/
def brow (b : TF S300) : TF S1x300 := shapeCast S1x300 b shapeCasts_S300_S1x300

/-- The dense weights transposed. -/
def wT (W : TF S300x300) : TF S300x300 := transpose S300x300 [1, 0] W transposes_S300x300_S300x300_1_0

/-- An array divided by the square root of the sum of its squares. -/
def tail (h : TF S50000x300) : TF S50000x300 :=
  Host.divf h (broadcastInDim S50000x300 ![] bcast_S_S50000x300
    (Host.sqrt (Host.reduceAdd (mulf h h) (constant S_ .f32 0x00000000#32) reducesTo_S50000x300_S_d0_1 h_S_)))

end Cert.KernelIdeal.Stages

end
-- ==== Proof.KerHost.lean ====
/-
  The kernel program's host stretches read back, boundary by boundary. Between the launches the program gathers and
  sums neighbour rows, cuts each layer's weights into two transposed halves and turns each bias into a one-row matrix;
  after the last launch it normalises. Each lemma says what one buffer holds at one boundary: either the stretch
  before it left the buffer alone (no operation of the stretch writes it), or it is the stretch's operations applied to
  what the previous boundary held, named by the stage definitions. A launch changes only its output array.
-/
import proofs.«118399_j1486058684815_1_alg».proof.Proof.Gen.KernelIdeal.Frame
import proofs.«118399_j1486058684815_1_alg».proof.Proof.KerStages
import Idealize.ShloMosaic.Lib.StableHlo.Run

set_option maxRecDepth 16384

noncomputable section

namespace Cert.KernelIdeal.KerHost

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Before the first launch -/

theorem W1_arg0 (c : Dev nD) : W1 m ρ c (Proc.devRef .tc main_arg0) = m ((c : Thread nD τ).loc main_arg0) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg0) = W0 m ρ c (Proc.devRef .tc main_arg0)).trans rfl

theorem W1_arg1 (c : Dev nD) : W1 m ρ c (Proc.devRef .tc main_arg1) = m ((c : Thread nD τ).loc main_arg1) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg1) = W0 m ρ c (Proc.devRef .tc main_arg1)).trans rfl

theorem W1_arg2 (c : Dev nD) : W1 m ρ c (Proc.devRef .tc main_arg2) = m ((c : Thread nD τ).loc main_arg2) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg2) = W0 m ρ c (Proc.devRef .tc main_arg2)).trans rfl

theorem W1_arg3 (c : Dev nD) : W1 m ρ c (Proc.devRef .tc main_arg3) = m ((c : Thread nD τ).loc main_arg3) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg3) = W0 m ρ c (Proc.devRef .tc main_arg3)).trans rfl

theorem W1_arg4 (c : Dev nD) : W1 m ρ c (Proc.devRef .tc main_arg4) = m ((c : Thread nD τ).loc main_arg4) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg4) = W0 m ρ c (Proc.devRef .tc main_arg4)).trans rfl

theorem W1_arg5 (c : Dev nD) : W1 m ρ c (Proc.devRef .tc main_arg5) = m ((c : Thread nD τ).loc main_arg5) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg5) = W0 m ρ c (Proc.devRef .tc main_arg5)).trans rfl

theorem W1_arg6 (c : Dev nD) : W1 m ρ c (Proc.devRef .tc main_arg6) = m ((c : Thread nD τ).loc main_arg6) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg6) = W0 m ρ c (Proc.devRef .tc main_arg6)).trans rfl

theorem W1_arg7 (c : Dev nD) : W1 m ρ c (Proc.devRef .tc main_arg7) = m ((c : Thread nD τ).loc main_arg7) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg7) = W0 m ρ c (Proc.devRef .tc main_arg7)).trans rfl

theorem W1_arg8 (c : Dev nD) : W1 m ρ c (Proc.devRef .tc main_arg8) = m ((c : Thread nD τ).loc main_arg8) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W1 m ρ c (Proc.devRef .tc main_arg8) = W0 m ρ c (Proc.devRef .tc main_arg8)).trans rfl

/-- The aggregate of the input features. -/
theorem W1_v9 (c : Dev nD) : W1 m ρ c (Proc.devRef .tc main_v9) = Stages.agg (m ((c : Thread nD τ).loc main_arg1)) (m ((c : Thread nD τ).loc main_arg2)) (m ((c : Thread nD τ).loc main_arg0)) := by
  show StableHlo.after hostOps0 (W0 m ρ c) (Proc.devRef .tc main_v9) = _
  after_results
  rfl

theorem W1_v11 (c : Dev nD) : W1 m ρ c (Proc.devRef .tc main_v11) = Stages.waT (m ((c : Thread nD τ).loc main_arg3)) := by
  show StableHlo.after hostOps0 (W0 m ρ c) (Proc.devRef .tc main_v11) = _
  after_results
  rfl

theorem W1_v13 (c : Dev nD) : W1 m ρ c (Proc.devRef .tc main_v13) = Stages.wbT (m ((c : Thread nD τ).loc main_arg3)) := by
  show StableHlo.after hostOps0 (W0 m ρ c) (Proc.devRef .tc main_v13) = _
  after_results
  rfl

theorem W1_v14 (c : Dev nD) : W1 m ρ c (Proc.devRef .tc main_v14) = Stages.brow (m ((c : Thread nD τ).loc main_arg4)) := by
  show StableHlo.after hostOps0 (W0 m ρ c) (Proc.devRef .tc main_v14) = _
  after_results
  rfl

/-! ## After the first launch, before the second -/

theorem W2_v15 (c : Dev nD) : W2 m ρ c (Proc.devRef .tc main_v15) = (dat0 (V1 m ρ) c).arrAt 5 cfg0.N := W2_arr m ρ c 5

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W3_v15 (c : Dev nD) : W3 m ρ c (Proc.devRef .tc main_v15) = W2 m ρ c (Proc.devRef .tc main_v15) :=
  (StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The aggregate of the first layer's output. -/
theorem W3_v25 (c : Dev nD) : W3 m ρ c (Proc.devRef .tc main_v25) = Stages.agg (m ((c : Thread nD τ).loc main_arg1)) (m ((c : Thread nD τ).loc main_arg2)) (W2 m ρ c (Proc.devRef .tc main_v15)) := by
  rw [← W2_arg1 m ρ c, ← W2_arg2 m ρ c]
  show StableHlo.after hostOps1 (W2 m ρ c) (Proc.devRef .tc main_v25) = _
  after_results
  rfl

theorem W3_v27 (c : Dev nD) : W3 m ρ c (Proc.devRef .tc main_v27) = Stages.waT (m ((c : Thread nD τ).loc main_arg5)) := by
  rw [← W2_arg5 m ρ c]
  show StableHlo.after hostOps1 (W2 m ρ c) (Proc.devRef .tc main_v27) = _
  after_results
  rfl

theorem W3_v29 (c : Dev nD) : W3 m ρ c (Proc.devRef .tc main_v29) = Stages.wbT (m ((c : Thread nD τ).loc main_arg5)) := by
  rw [← W2_arg5 m ρ c]
  show StableHlo.after hostOps1 (W2 m ρ c) (Proc.devRef .tc main_v29) = _
  after_results
  rfl

theorem W3_v30 (c : Dev nD) : W3 m ρ c (Proc.devRef .tc main_v30) = Stages.brow (m ((c : Thread nD τ).loc main_arg6)) := by
  rw [← W2_arg6 m ρ c]
  show StableHlo.after hostOps1 (W2 m ρ c) (Proc.devRef .tc main_v30) = _
  after_results
  rfl

theorem W3_arg7 (c : Dev nD) : W3 m ρ c (Proc.devRef .tc main_arg7) = m ((c : Thread nD τ).loc main_arg7) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W3 m ρ c (Proc.devRef .tc main_arg7) = W2 m ρ c (Proc.devRef .tc main_arg7)).trans (W2_arg7 m ρ c)

theorem W3_arg8 (c : Dev nD) : W3 m ρ c (Proc.devRef .tc main_arg8) = m ((c : Thread nD τ).loc main_arg8) :=
  ((StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))) : W3 m ρ c (Proc.devRef .tc main_arg8) = W2 m ρ c (Proc.devRef .tc main_arg8)).trans (W2_arg8 m ρ c)

/-! ## After the second launch, before the third -/

theorem W4_v31 (c : Dev nD) : W4 m ρ c (Proc.devRef .tc main_v31) = (dat1 (V3 m ρ) c).arrAt 5 cfg1.N := W4_arr m ρ c 5

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W5_v31 (c : Dev nD) : W5 m ρ c (Proc.devRef .tc main_v31) = W4 m ρ c (Proc.devRef .tc main_v31) :=
  (StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem W5_v32 (c : Dev nD) : W5 m ρ c (Proc.devRef .tc main_v32) = Stages.wT (m ((c : Thread nD τ).loc main_arg7)) := by
  rw [← W4_arg7 m ρ c]
  show StableHlo.after hostOps2 (W4 m ρ c) (Proc.devRef .tc main_v32) = _
  after_results
  rfl

theorem W5_v33 (c : Dev nD) : W5 m ρ c (Proc.devRef .tc main_v33) = Stages.brow (m ((c : Thread nD τ).loc main_arg8)) := by
  rw [← W4_arg8 m ρ c]
  show StableHlo.after hostOps2 (W4 m ρ c) (Proc.devRef .tc main_v33) = _
  after_results
  rfl

/-! ## After the third launch -/

theorem W6_v34 (c : Dev nD) : W6 m ρ c (Proc.devRef .tc main_v34) = (dat2 (V5 m ρ) c).arrAt 3 cfg2.N := W6_arr m ρ c 3

/-- The result: the third launch's output, normalised. -/
theorem W7_v39 (c : Dev nD) : W7 m ρ c (Proc.devRef .tc main_v39) = Stages.tail (W6 m ρ c (Proc.devRef .tc main_v34)) := by
  show StableHlo.after hostOps3 (W6 m ρ c) (Proc.devRef .tc main_v39) = _
  after_results
  rfl

end Cert.KernelIdeal.KerHost

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.KerApply.lean ====
/-
  The kernel bodies' stored values read at one entry of a block, and the weight and bias operands read at one entry:
  each body is two (or one) products of a block of rows with a 300 × 300 matrix into a zero accumulator, a bias row
  broadcast down the block, and an entrywise activation, so entry (p, q) of what it stores depends on row p of each
  row block, column q of each matrix and entry q of the bias row. The matrices are transposed halves of the weights:
  entry (k, q) of the left half transposed is W[q, k], of the right half W[q, 300 + k].
-/
import proofs.«118399_j1486058684815_1_alg».proof.Proof.KerStages
import proofs.«118399_j1486058684815_1_alg».proof.Proof.Gen.KernelIdeal.Skeleton
import proofs.«118399_j1486058684815_1_alg».proof.Proof.LibDotPlain
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Stages

open Idealize.ShloMosaic Idealize.ShloMosaic.ValueIdx Cert.KernelIdeal Cert.KernelIdeal.Facts₀

/-- A block of 5000 rows times a 300 × 300 matrix into a zero accumulator, read at entry (p, q): the sum over the
    contracted coordinate k of l[p, k] · r[k, q]. The dimension numbers contract the left operand's axis 1 against the
    right operand's axis 0; the left operand's axis 0 and the right operand's axis 1 are the result's two axes. -/
private theorem mm_apply (l : FVec Ideal S5000x300 .f32) (r : FVec Ideal S300x300 .f32) (p : Fin 5000) (q : Fin 300) :
    matmul dot_S5000x300_S300x300_S5000x300_1_0_0_1_n_n none l r (constant S5000x300 .f32 0x00000000#32) (ix2 p q)
      = ∑ k : Fin 300, l (ix2 p k) * r (ix2 k q) :=
  Cert.LibDotPlain.matmul_zero_plain (N := 5000) (K := 300) (M := 300) dot_S5000x300_S300x300_S5000x300_1_0_0_1_n_n rfl rfl
    (fun i k => by
      unfold DotDims.lhsIdx
      rfl)
    (fun i k => DotDims.lhsIdx_val_of_single dot_S5000x300_S300x300_S5000x300_1_0_0_1_n_n (cl := 1) rfl i k)
    (fun i k => DotDims.rhsIdx_val_of_single dot_S5000x300_S300x300_S5000x300_1_0_0_1_n_n (cr := 0) rfl i k)
    (fun i k => by
      unfold DotDims.rhsIdx
      rfl)
    none l r p q

/-- Two such products added, plus the bias row broadcast down the block, read at entry (p, q): the layer's entry before
    its activation, from row p of the two row blocks, column q of the two matrices and entry q of the bias row. -/
private theorem lin_apply (x0 x1 : FVec Ideal S5000x300 .f32) (x2 x3 : FVec Ideal S300x300 .f32) (x4 : FVec Ideal S1x300 .f32)
    (p : Fin 5000) (q : Fin 300) :
    addf (addf (matmul dot_S5000x300_S300x300_S5000x300_1_0_0_1_n_n none x0 x2 (constant S5000x300 .f32 0x00000000#32))
               (matmul dot_S5000x300_S300x300_S5000x300_1_0_0_1_n_n none x1 x3 (constant S5000x300 .f32 0x00000000#32)))
         (broadcastTo S5000x300 x4 broadcasts_S1x300_S5000x300) (ix2 p q)
      = Cert.Gcn.linAt (fun k => x0 (ix2 p k)) (fun k => x1 (ix2 p k)) (fun k => x2 (ix2 k q)) (fun k => x3 (ix2 k q)) (x4 (ix2 0 q)) := by
  show (matmul dot_S5000x300_S300x300_S5000x300_1_0_0_1_n_n none x0 x2 (constant S5000x300 .f32 0x00000000#32) (ix2 p q)
        + matmul dot_S5000x300_S300x300_S5000x300_1_0_0_1_n_n none x1 x3 (constant S5000x300 .f32 0x00000000#32) (ix2 p q))
        + broadcastTo S5000x300 x4 broadcasts_S1x300_S5000x300 (ix2 p q) = _
  rw [mm_apply x0 x2 p q, mm_apply x1 x3 p q, broadcastTo_1b_ab_apply x4 broadcasts_S1x300_S5000x300 p q]
  rfl

theorem pay0_apply (x0 x1 : Vec Ideal S5000x300 .f32) (x2 x3 : Vec Ideal S300x300 .f32) (x4 : Vec Ideal S1x300 .f32) (p : Fin 5000) (q : Fin 300) :
    Gen.k0_pay1 (F := Ideal) x0 x2 x1 x3 x4 (ix2 p q)
      = Cert.Gcn.lrelu1 (Cert.Gcn.linAt (fun k => x0 (ix2 p k)) (fun k => x1 (ix2 p k)) (fun k => x2 (ix2 k q)) (fun k => x3 (ix2 k q)) (x4 (ix2 0 q))) := by
  unfold Gen.k0_pay1
  -- the casts between equal shapes are identities
  simp only [shapeCast_self]
  -- the rectifier is entrywise: a select between h and slope · h on the comparison h ≥ 0, h the entry before activation
  refine (select_apply _ _ _ (ix2 p q)).trans ?_
  rw [cmpf_apply, mulf_apply, broadcast_apply, broadcast_apply, lin_apply x0 x1 x2 x3 x4 p q]
  rfl

theorem pay1_apply (x0 x1 : Vec Ideal S5000x300 .f32) (x2 x3 : Vec Ideal S300x300 .f32) (x4 : Vec Ideal S1x300 .f32) (p : Fin 5000) (q : Fin 300) :
    Gen.k1_pay1 (F := Ideal) x0 x2 x1 x3 x4 (ix2 p q)
      = Cert.Gcn.linAt (fun k => x0 (ix2 p k)) (fun k => x1 (ix2 p k)) (fun k => x2 (ix2 k q)) (fun k => x3 (ix2 k q)) (x4 (ix2 0 q)) := by
  unfold Gen.k1_pay1
  simp only [shapeCast_self]
  exact lin_apply x0 x1 x2 x3 x4 p q

theorem pay2_apply (x0 : Vec Ideal S5000x300 .f32) (x1 : Vec Ideal S300x300 .f32) (x2 : Vec Ideal S1x300 .f32) (p : Fin 5000) (q : Fin 300) :
    Gen.k2_pay1 (F := Ideal) x0 x1 x2 (ix2 p q)
      = Ideal.tanh (Cert.Gcn.denseAt (fun k => x0 (ix2 p k)) (fun k => x1 (ix2 k q)) (x2 (ix2 0 q))) := by
  unfold Gen.k2_pay1
  simp only [shapeCast_self]
  -- tanh is entrywise, of one product plus the bias row
  show Ideal.tanh (matmul (F := Ideal) dot_S5000x300_S300x300_S5000x300_1_0_0_1_n_n none x0 x1 (constant S5000x300 .f32 0x00000000#32) (ix2 p q)
        + broadcastTo S5000x300 x2 broadcasts_S1x300_S5000x300 (ix2 p q)) = _
  rw [mm_apply x0 x1 p q, broadcastTo_1b_ab_apply x2 broadcasts_S1x300_S5000x300 p q]
  rfl

theorem waT_apply (W : TF S300x600) (k q : Fin 300) : waT W (ix2 k q) = W (ix2 q (Cert.Gcn.lo k)) := by
  unfold waT
  -- the transpose reads the slice at (q, k); the slice at offset (0, 0) reads W at (q, k)
  refine (transpose_apply [1, 0] _ transposes_S300x300_S300x300_1_0 (ix2 k q) (ix2 q k) (fun b => ?_)).trans ?_
  · match b with
    | ⟨0, _⟩ => rfl
    | ⟨1, _⟩ => rfl
  · refine extractStridedSlice_apply ![0, 0] W slices_S300x600_S300x300_0_0 (ix2 q k) (ix2 q (Cert.Gcn.lo k)) (fun a => ?_)
    match a with
    | ⟨0, _⟩ => show q.val = 0 + q.val; omega
    | ⟨1, _⟩ => show k.val = 0 + k.val; omega

theorem wbT_apply (W : TF S300x600) (k q : Fin 300) : wbT W (ix2 k q) = W (ix2 q (Cert.Gcn.hi k)) := by
  unfold wbT
  -- the transpose reads the slice at (q, k); the slice at offset (0, 300) reads W at (q, 300 + k)
  refine (transpose_apply [1, 0] _ transposes_S300x300_S300x300_1_0 (ix2 k q) (ix2 q k) (fun b => ?_)).trans ?_
  · match b with
    | ⟨0, _⟩ => rfl
    | ⟨1, _⟩ => rfl
  · refine extractStridedSlice_apply ![0, 300] W slices_S300x600_S300x300_0_300 (ix2 q k) (ix2 q (Cert.Gcn.hi k)) (fun a => ?_)
    match a with
    | ⟨0, _⟩ => show q.val = 0 + q.val; omega
    | ⟨1, _⟩ => show 300 + k.val = 300 + k.val; rfl

theorem brow_apply (b : TF S300) (q : Fin 300) : brow b (ix2 0 q) = b (ix1 q) :=
  shapeCast_a_1a_apply b shapeCasts_S300_S1x300 (0 : Fin 1) q

theorem wT_apply (W : TF S300x300) (k q : Fin 300) : wT W (ix2 k q) = W (ix2 q k) := by
  unfold wT
  refine transpose_apply [1, 0] W transposes_S300x300_S300x300_1_0 (ix2 k q) (ix2 q k) (fun b => ?_)
  match b with
  | ⟨0, _⟩ => rfl
  | ⟨1, _⟩ => rfl

end Cert.KernelIdeal.Stages

end
-- ==== Proof.KerRegion0.lean ====
/-
  The first layer's launch, read as one array. Each of the ten grid points takes a block of 5000 node rows of the
  features and of their aggregate, the two transposed weight halves and the bias row whole, and writes back the block
  of 5000 rows of the layer's output; row r of the output depends on row r of the two row operands only, so the ten
  written blocks are the restrictions of ONE function of the operand arrays, and since they tile the rows the output
  array ends holding that function.
-/
import proofs.«118399_j1486058684815_1_alg».proof.Proof.Gen.KernelIdeal.Frame
import proofs.«118399_j1486058684815_1_alg».proof.Proof.KerApply
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer with the rectifier as a function of the launch's five operand arrays: entry (r, q) from row r of the
    two row operands, column q of the two matrices and entry q of the bias row. -/
def G (x a : S50000x300.Idx → EReal) (wa wb : S300x300.Idx → EReal) (br : S1x300.Idx → EReal) : S50000x300.Idx → EReal :=
  fun i => Cert.Gcn.lrelu1 (Cert.Gcn.linAt (fun k => x (ix2 (i 0) k)) (fun k => a (ix2 (i 0) k))
    (fun k => wa (ix2 k (i 1))) (fun k => wb (ix2 k (i 1))) (br (ix2 0 (i 1))))

/-- Entry (p, q) of what a point stores is entry (r, q) of the layer, when row p of the point's two row blocks is
    row r of the arrays and its matrix and bias blocks are the whole operands. -/
theorem block_entry (x0 x1 : Vec Ideal S5000x300 .f32) (x2 x3 : Vec Ideal S300x300 .f32) (x4 : Vec Ideal S1x300 .f32)
    (X A : S50000x300.Idx → EReal) (Wa Wb : S300x300.Idx → EReal) (Br : S1x300.Idx → EReal)
    (p : Fin 5000) (q : Fin 300) (r : Fin 50000) (i : S50000x300.Idx) (hi : i = ix2 r q)
    (h0 : ∀ k : Fin 300, x0 (ix2 p k) = X (ix2 r k)) (h1 : ∀ k : Fin 300, x1 (ix2 p k) = A (ix2 r k))
    (h2 : ∀ y, x2 y = Wa y) (h3 : ∀ y, x3 y = Wb y) (h4 : ∀ y, x4 y = Br y) :
    k0_pay1 (F := Ideal) x0 x2 x1 x3 x4 (ix2 p q) = G X A Wa Wb Br i := by
  subst hi
  rw [Stages.pay0_apply]
  unfold G
  simp only [h0, h1, h2, h3, h4]

/-- Where each window's block sits at point t: the row windows at block row t, everything else at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed_eq (c : Dev nD) (t : Fin cfg0.N) :
    (dat0 V c).flushed 5 t = ((cfg0.win 5).blk t).view.read (Elt Ideal)
      (G (V c main_arg0) (V c main_v9) (V c main_v11) (V c main_v13) (V c main_v14)) := by
  show (cfg0.win 5).cut (grid0.coords t) ((dat0 V c).after 5 t) = _
  rw [after0_5]
  unfold out0_5
  rw [View.canon_unit_zero hz]
  simp only [View.ld_unit_zero (S := S5000x300) hz, View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  obtain ⟨e00, e01, e10, e11, e20, e21, e30, e31, e40, e41, e50, e51⟩ := idx_facts t
  have ht : t.val < 10 := lt_of_lt_of_eq t.isLt N_0
  have hr : t.val * 5000 + p.val < 50000 := by have := p.isLt; omega
  show k0_pay1 (iblk0 V c 0 t) (iblk0 V c 2 t) (iblk0 V c 1 t) (iblk0 V c 3 t) (iblk0 V c 4 t) (ix2 p q)
    = G (V c main_arg0) (V c main_v9) (V c main_v11) (V c main_v13) (V c main_v14) (((cfg0.win 5).blk t).view.emb (ix2 p q))
  refine block_entry (iblk0 V c 0 t) (iblk0 V c 1 t) (iblk0 V c 2 t) (iblk0 V c 3 t) (iblk0 V c 4 t)
    (V c main_arg0) (V c main_v9) (V c main_v11) (V c main_v13) (V c main_v14) p q ⟨t.val * 5000 + p.val, hr⟩
    (((cfg0.win 5).blk t).view.emb (ix2 p q)) ?_ ?_ ?_ ?_ ?_ ?_
  · funext a; apply Fin.ext
    match a with
    | ⟨0, _⟩ => show win0_5.index t (0 : Fin 2) * 5000 + 1 * p.val = t.val * 5000 + p.val; omega
    | ⟨1, _⟩ => show win0_5.index t (1 : Fin 2) * 300 + 1 * q.val = q.val; omega
  · intro k
    show V c main_arg0 (((cfg0.win 0).blk t).view.emb (ix2 p k)) = V c main_arg0 (ix2 ⟨t.val * 5000 + p.val, hr⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 300 + 1 * k.val = k.val; omega
  · intro k
    show V c main_v9 (((cfg0.win 1).blk t).view.emb (ix2 p k)) = V c main_v9 (ix2 ⟨t.val * 5000 + p.val, hr⟩ k)
    refine congrArg (V c main_v9) ?_
    funext a; apply Fin.ext
    match a with
    | ⟨0, _⟩ => show win0_1.index t (0 : Fin 2) * 5000 + 1 * p.val = t.val * 5000 + p.val; omega
    | ⟨1, _⟩ => show win0_1.index t (1 : Fin 2) * 300 + 1 * k.val = k.val; omega
  · intro y
    show V c main_v11 (((cfg0.win 2).blk t).view.emb y) = V c main_v11 y
    refine congrArg (V c main_v11) ?_
    funext a; apply Fin.ext
    match a with
    | ⟨0, _⟩ => show win0_2.index t (0 : Fin 2) * 300 + 1 * (y 0).val = (y 0).val; omega
    | ⟨1, _⟩ => show win0_2.index t (1 : Fin 2) * 300 + 1 * (y 1).val = (y 1).val; omega
  · intro y
    show V c main_v13 (((cfg0.win 3).blk t).view.emb y) = V c main_v13 y
    refine congrArg (V c main_v13) ?_
    funext a; apply Fin.ext
    match a with
    | ⟨0, _⟩ => show win0_3.index t (0 : Fin 2) * 300 + 1 * (y 0).val = (y 0).val; omega
    | ⟨1, _⟩ => show win0_3.index t (1 : Fin 2) * 300 + 1 * (y 1).val = (y 1).val; omega
  · intro y
    show V c main_v14 (((cfg0.win 4).blk t).view.emb y) = V c main_v14 y
    refine congrArg (V c main_v14) ?_
    funext a; apply Fin.ext
    match a with
    | ⟨0, _⟩ => show win0_4.index t (0 : Fin 2) * 1 + 1 * (y 0).val = (y 0).val; omega
    | ⟨1, _⟩ => show win0_4.index t (1 : Fin 2) * 300 + 1 * (y 1).val = (y 1).val; omega

/-- An index of the output array is in point t's block iff each coordinate is in the block's range on its axis. -/
theorem mem_blk (t : Fin cfg0.N) (i : S50000x300.Idx) :
    i ∈ ((cfg0.win 5).blk t).view.set ↔ ∀ a : Fin 2, win0_5.index t a * S5000x300.size a ≤ (i a).val ∧ (i a).val < win0_5.index t a * S5000x300.size a + S5000x300.size a := by
  show i ∈ ((View.whole main_v15).slice (win0_5.rect t)).set ↔ _
  rw [View.set_slice_whole, Rect.mem_set_unit]
  exact Iff.rfl

/-- Every row lies in the block of the point numbered by its quotient by 5000. -/
theorem cover (i : S50000x300.Idx) : ∃ t : Fin cfg0.N, (cfg0.win 5).flush t = true ∧ i ∈ ((cfg0.win 5).blk t).view.set := by
  have hi0 : (i 0).val < 50000 := (i 0).isLt
  have hi1 : (i 1).val < 300 := (i 1).isLt
  have hN : (i 0).val / 5000 < cfg0.N := by rw [show cfg0.N = grid0.N from rfl, N_0]; omega
  refine ⟨⟨(i 0).val / 5000, hN⟩, flush0_5 _, ?_⟩
  rw [mem_blk]
  obtain ⟨-, -, -, -, -, -, -, -, -, -, e50, e51⟩ := idx_facts ⟨(i 0).val / 5000, hN⟩
  intro a
  match a with
  | ⟨0, _⟩ => show win0_5.index _ (0 : Fin 2) * 5000 ≤ (i 0).val ∧ (i 0).val < win0_5.index _ (0 : Fin 2) * 5000 + 5000; rw [e50]; show (i 0).val / 5000 * 5000 ≤ (i 0).val ∧ (i 0).val < (i 0).val / 5000 * 5000 + 5000; omega
  | ⟨1, _⟩ => show win0_5.index _ (1 : Fin 2) * 300 ≤ (i 1).val ∧ (i 1).val < win0_5.index _ (1 : Fin 2) * 300 + 300; rw [e51]; omega

/-- The output array after the launch is the layer's function of the operand arrays as the launch finds them. -/
theorem final (c : Dev nD) :
    (dat0 V c).arrAt 5 cfg0.N = G (V c main_arg0) (V c main_v9) (V c main_v11) (V c main_v13) (V c main_v14) :=
  (dat0 V c).arrAt_eq_of_cover 5 _ (fun t _ => flushed_eq V c t) cover

end Cert.KernelIdeal.Region0

end
-- ==== Proof.KerRegion1.lean ====
/-
  The second graph layer's launch, seen from outside as a single assignment to its output array. The grid has ten
  points; point t reads rows 5000·t … 5000·t + 4999 of the node features and of their neighbour aggregate, reads both
  transposed weight halves and the one-row bias in full, and writes rows 5000·t … 5000·t + 4999 of the output. What it
  writes at (p, q) is the layer's entry (5000·t + p, q), which looks only at row 5000·t + p of the two row arrays.
  Hence every written block is a window onto the same function G of the five operand arrays, and because the ten
  windows partition the 50000 rows, after the launch the output array is G of the operands. This layer has no
  activation.
-/
import proofs.«118399_j1486058684815_1_alg».proof.Proof.Gen.KernelIdeal.Frame
import proofs.«118399_j1486058684815_1_alg».proof.Proof.KerApply
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset pair, as the constant function. -/
theorem hz : (![0, 0] : Fin 2 → Nat) = fun _ => 0 := funext fun a => by fin_cases a <;> rfl

/-- The second layer, without activation, as a function of the launch's five operand arrays: entry (r, q) uses row r
    of the features and of the aggregate, column q of each transposed weight half, and entry q of the bias row. -/
def G (x a : S50000x300.Idx → EReal) (wa wb : S300x300.Idx → EReal) (br : S1x300.Idx → EReal) : S50000x300.Idx → EReal :=
  fun i => Cert.Gcn.linAt (fun k => x (ix2 (i 0) k)) (fun k => a (ix2 (i 0) k)) (fun k => wa (ix2 k (i 1))) (fun k => wb (ix2 k (i 1))) (br (ix2 0 (i 1)))

/-- If row p of a point's two row blocks equals row r of the row arrays, and its two matrix blocks and bias block equal
    the matrix and bias arrays everywhere, then the value the point stores at (p, q) is G at (r, q). -/
theorem block_entry (x0 x1 : Vec Ideal S5000x300 .f32) (x2 x3 : Vec Ideal S300x300 .f32) (x4 : Vec Ideal S1x300 .f32)
    (X A : S50000x300.Idx → EReal) (Wa Wb : S300x300.Idx → EReal) (Br : S1x300.Idx → EReal)
    (p : Fin 5000) (q : Fin 300) (r : Fin 50000) (i : S50000x300.Idx) (hi : i = ix2 r q)
    (h0 : ∀ k : Fin 300, x0 (ix2 p k) = X (ix2 r k)) (h1 : ∀ k : Fin 300, x1 (ix2 p k) = A (ix2 r k))
    (h2 : ∀ y, x2 y = Wa y) (h3 : ∀ y, x3 y = Wb y) (h4 : ∀ y, x4 y = Br y) :
    k1_pay1 (F := Ideal) x0 x2 x1 x3 x4 (ix2 p q) = G X A Wa Wb Br i := by
  subst hi
  rw [Stages.pay1_apply]
  unfold G
  simp only [h0, h1, h2, h3, h4]

/-- The block positions at point t, decided over the ten points: the two row inputs and the output sit at block row t,
    column block 0; the two matrices and the bias row sit at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is G of the operand arrays, read through the output window's block at t. -/
theorem flushed_eq (c : Dev nD) (t : Fin cfg1.N) :
    (dat1 V c).flushed 5 t = ((cfg1.win 5).blk t).view.read (Elt Ideal)
      (G (V c main_v15) (V c main_v25) (V c main_v27) (V c main_v29) (V c main_v30)) := by
  show (cfg1.win 5).cut (grid1.coords t) ((dat1 V c).after 5 t) = _
  rw [after1_5]
  unfold out1_5
  rw [View.canon_unit_zero hz]
  simp only [View.ld_unit_zero (S := S5000x300) hz, View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  obtain ⟨e00, e01, e10, e11, e20, e21, e30, e31, e40, e41, e50, e51⟩ := idx_facts t
  have ht : t.val < 10 := lt_of_lt_of_eq t.isLt N_1
  have hr : t.val * 5000 + p.val < 50000 := by have := p.isLt; omega
  show k1_pay1 (iblk1 V c 0 t) (iblk1 V c 2 t) (iblk1 V c 1 t) (iblk1 V c 3 t) (iblk1 V c 4 t) (ix2 p q)
    = G (V c main_v15) (V c main_v25) (V c main_v27) (V c main_v29) (V c main_v30) (((cfg1.win 5).blk t).view.emb (ix2 p q))
  refine block_entry (iblk1 V c 0 t) (iblk1 V c 1 t) (iblk1 V c 2 t) (iblk1 V c 3 t) (iblk1 V c 4 t)
    (V c main_v15) (V c main_v25) (V c main_v27) (V c main_v29) (V c main_v30) p q ⟨t.val * 5000 + p.val, hr⟩
    (((cfg1.win 5).blk t).view.emb (ix2 p q)) ?_ ?_ ?_ ?_ ?_ ?_
  · funext a; apply Fin.ext
    match a with
    | ⟨0, _⟩ => show win1_5.index t (0 : Fin 2) * 5000 + 1 * p.val = t.val * 5000 + p.val; omega
    | ⟨1, _⟩ => show win1_5.index t (1 : Fin 2) * 300 + 1 * q.val = q.val; omega
  · intro k
    show V c main_v15 (((cfg1.win 0).blk t).view.emb (ix2 p k)) = V c main_v15 (ix2 ⟨t.val * 5000 + p.val, hr⟩ k)
    refine congrArg (V c main_v15) ?_
    funext a; apply Fin.ext
    match a with
    | ⟨0, _⟩ => show win1_0.index t (0 : Fin 2) * 5000 + 1 * p.val = t.val * 5000 + p.val; omega
    | ⟨1, _⟩ => show win1_0.index t (1 : Fin 2) * 300 + 1 * k.val = k.val; omega
  · intro k
    show V c main_v25 (((cfg1.win 1).blk t).view.emb (ix2 p k)) = V c main_v25 (ix2 ⟨t.val * 5000 + p.val, hr⟩ k)
    refine congrArg (V c main_v25) ?_
    funext a; apply Fin.ext
    match a with
    | ⟨0, _⟩ => show win1_1.index t (0 : Fin 2) * 5000 + 1 * p.val = t.val * 5000 + p.val; omega
    | ⟨1, _⟩ => show win1_1.index t (1 : Fin 2) * 300 + 1 * k.val = k.val; omega
  · intro y
    show V c main_v27 (((cfg1.win 2).blk t).view.emb y) = V c main_v27 y
    refine congrArg (V c main_v27) ?_
    funext a; apply Fin.ext
    match a with
    | ⟨0, _⟩ => show win1_2.index t (0 : Fin 2) * 300 + 1 * (y 0).val = (y 0).val; omega
    | ⟨1, _⟩ => show win1_2.index t (1 : Fin 2) * 300 + 1 * (y 1).val = (y 1).val; omega
  · intro y
    show V c main_v29 (((cfg1.win 3).blk t).view.emb y) = V c main_v29 y
    refine congrArg (V c main_v29) ?_
    funext a; apply Fin.ext
    match a with
    | ⟨0, _⟩ => show win1_3.index t (0 : Fin 2) * 300 + 1 * (y 0).val = (y 0).val; omega
    | ⟨1, _⟩ => show win1_3.index t (1 : Fin 2) * 300 + 1 * (y 1).val = (y 1).val; omega
  · intro y
    show V c main_v30 (((cfg1.win 4).blk t).view.emb y) = V c main_v30 y
    refine congrArg (V c main_v30) ?_
    funext a; apply Fin.ext
    match a with
    | ⟨0, _⟩ => show win1_4.index t (0 : Fin 2) * 1 + 1 * (y 0).val = (y 0).val; omega
    | ⟨1, _⟩ => show win1_4.index t (1 : Fin 2) * 300 + 1 * (y 1).val = (y 1).val; omega

/-- Membership of an output index in the block point t writes: on each axis the coordinate lies in the half-open range
    that starts at the block's position times the block's extent and has the block's extent as length. -/
theorem mem_blk (t : Fin cfg1.N) (i : S50000x300.Idx) :
    i ∈ ((cfg1.win 5).blk t).view.set ↔ ∀ a : Fin 2, win1_5.index t a * S5000x300.size a ≤ (i a).val ∧ (i a).val < win1_5.index t a * S5000x300.size a + S5000x300.size a := by
  show i ∈ ((View.whole main_v31).slice (win1_5.rect t)).set ↔ _
  rw [View.set_slice_whole, Rect.mem_set_unit]
  exact Iff.rfl

/-- The ten blocks of 5000 rows exhaust the 50000 rows: row r is written by the point ⌊r / 5000⌋, and every point
    writes its block back. -/
theorem cover (i : S50000x300.Idx) : ∃ t : Fin cfg1.N, (cfg1.win 5).flush t = true ∧ i ∈ ((cfg1.win 5).blk t).view.set := by
  have hi0 : (i 0).val < 50000 := (i 0).isLt
  have hi1 : (i 1).val < 300 := (i 1).isLt
  have hN : (i 0).val / 5000 < cfg1.N := by rw [show cfg1.N = grid1.N from rfl, N_1]; omega
  refine ⟨⟨(i 0).val / 5000, hN⟩, flush1_5 _, ?_⟩
  rw [mem_blk]
  obtain ⟨-, -, -, -, -, -, -, -, -, -, eo0, eo1⟩ := idx_facts ⟨(i 0).val / 5000, hN⟩
  intro a
  match a with
  | ⟨0, _⟩ => show win1_5.index _ (0 : Fin 2) * 5000 ≤ (i 0).val ∧ (i 0).val < win1_5.index _ (0 : Fin 2) * 5000 + 5000; rw [eo0]; show (i 0).val / 5000 * 5000 ≤ (i 0).val ∧ (i 0).val < (i 0).val / 5000 * 5000 + 5000; omega
  | ⟨1, _⟩ => show win1_5.index _ (1 : Fin 2) * 300 ≤ (i 1).val ∧ (i 1).val < win1_5.index _ (1 : Fin 2) * 300 + 300; rw [eo1]; omega

/-- After the launch the output array holds G of the five operand arrays as they stood when the launch began. -/
theorem final (c : Dev nD) :
    (dat1 V c).arrAt 5 cfg1.N = G (V c main_v15) (V c main_v25) (V c main_v27) (V c main_v29) (V c main_v30) :=
  (dat1 V c).arrAt_eq_of_cover 5 _ (fun t _ => flushed_eq V c t) cover

end Cert.KernelIdeal.Region1

end
-- ==== Proof.KerRegion2.lean ====
/-
  The dense layer's launch, seen from outside as a single assignment to its output array. The grid has ten points;
  point t reads rows 5000·t … 5000·t + 4999 of the node features, reads the transposed 300 × 300 weights and the one-row
  bias in full, and writes rows 5000·t … 5000·t + 4999 of the output. What it writes at (p, q) is tanh of the dense
  entry (5000·t + p, q), which looks only at row 5000·t + p of the features. Hence every written block is a window onto
  the same function G of the three operand arrays, and because the ten windows partition the 50000 rows, after the
  launch the output array is G of the operands.
-/
import proofs.«118399_j1486058684815_1_alg».proof.Proof.Gen.KernelIdeal.Frame
import proofs.«118399_j1486058684815_1_alg».proof.Proof.KerApply
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset pair, as the constant function. -/
theorem hz : (![0, 0] : Fin 2 → Nat) = fun _ => 0 := funext fun a => by fin_cases a <;> rfl

/-- The dense layer with tanh as a function of the launch's three operand arrays: entry (r, q) uses row r of the
    features, column q of the transposed weights, and entry q of the bias row. -/
def G (x : S50000x300.Idx → EReal) (w : S300x300.Idx → EReal) (br : S1x300.Idx → EReal) : S50000x300.Idx → EReal :=
  fun i => Ideal.tanh (Cert.Gcn.denseAt (fun k => x (ix2 (i 0) k)) (fun k => w (ix2 k (i 1))) (br (ix2 0 (i 1))))

/-- If row p of a point's row block equals row r of the feature array, and its matrix block and bias block equal the
    weight and bias arrays everywhere, then the value the point stores at (p, q) is G at (r, q). -/
theorem block_entry (x0 : Vec Ideal S5000x300 .f32) (x1 : Vec Ideal S300x300 .f32) (x2 : Vec Ideal S1x300 .f32)
    (X : S50000x300.Idx → EReal) (W : S300x300.Idx → EReal) (Br : S1x300.Idx → EReal)
    (p : Fin 5000) (q : Fin 300) (r : Fin 50000) (i : S50000x300.Idx) (hi : i = ix2 r q)
    (h0 : ∀ k : Fin 300, x0 (ix2 p k) = X (ix2 r k)) (h1 : ∀ y, x1 y = W y) (h2 : ∀ y, x2 y = Br y) :
    k2_pay1 (F := Ideal) x0 x1 x2 (ix2 p q) = G X W Br i := by
  subst hi
  rw [Stages.pay2_apply]
  unfold G
  simp only [h0, h1, h2]

/-- The block positions at point t, decided over the ten points: the row input and the output sit at block row t,
    column block 0; the matrix and the bias row sit at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is G of the operand arrays, read through the output window's block at t. -/
theorem flushed_eq (c : Dev nD) (t : Fin cfg2.N) :
    (dat2 V c).flushed 3 t = ((cfg2.win 3).blk t).view.read (Elt Ideal)
      (G (V c main_v31) (V c main_v32) (V c main_v33)) := by
  show (cfg2.win 3).cut (grid2.coords t) ((dat2 V c).after 3 t) = _
  rw [after2_3]
  unfold out2_3
  rw [View.canon_unit_zero hz]
  simp only [View.ld_unit_zero (S := S5000x300) hz, View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  obtain ⟨e00, e01, e10, e11, e20, e21, e30, e31⟩ := idx_facts t
  have ht : t.val < 10 := lt_of_lt_of_eq t.isLt N_2
  have hr : t.val * 5000 + p.val < 50000 := by have := p.isLt; omega
  show k2_pay1 (iblk2 V c 0 t) (iblk2 V c 1 t) (iblk2 V c 2 t) (ix2 p q)
    = G (V c main_v31) (V c main_v32) (V c main_v33) (((cfg2.win 3).blk t).view.emb (ix2 p q))
  refine block_entry (iblk2 V c 0 t) (iblk2 V c 1 t) (iblk2 V c 2 t)
    (V c main_v31) (V c main_v32) (V c main_v33) p q ⟨t.val * 5000 + p.val, hr⟩
    (((cfg2.win 3).blk t).view.emb (ix2 p q)) ?_ ?_ ?_ ?_
  · funext a; apply Fin.ext
    match a with
    | ⟨0, _⟩ => show win2_3.index t (0 : Fin 2) * 5000 + 1 * p.val = t.val * 5000 + p.val; omega
    | ⟨1, _⟩ => show win2_3.index t (1 : Fin 2) * 300 + 1 * q.val = q.val; omega
  · intro k
    show V c main_v31 (((cfg2.win 0).blk t).view.emb (ix2 p k)) = V c main_v31 (ix2 ⟨t.val * 5000 + p.val, hr⟩ k)
    refine congrArg (V c main_v31) ?_
    funext a; apply Fin.ext
    match a with
    | ⟨0, _⟩ => show win2_0.index t (0 : Fin 2) * 5000 + 1 * p.val = t.val * 5000 + p.val; omega
    | ⟨1, _⟩ => show win2_0.index t (1 : Fin 2) * 300 + 1 * k.val = k.val; omega
  · intro y
    show V c main_v32 (((cfg2.win 1).blk t).view.emb y) = V c main_v32 y
    refine congrArg (V c main_v32) ?_
    funext a; apply Fin.ext
    match a with
    | ⟨0, _⟩ => show win2_1.index t (0 : Fin 2) * 300 + 1 * (y 0).val = (y 0).val; omega
    | ⟨1, _⟩ => show win2_1.index t (1 : Fin 2) * 300 + 1 * (y 1).val = (y 1).val; omega
  · intro y
    show V c main_v33 (((cfg2.win 2).blk t).view.emb y) = V c main_v33 y
    refine congrArg (V c main_v33) ?_
    funext a; apply Fin.ext
    match a with
    | ⟨0, _⟩ => show win2_2.index t (0 : Fin 2) * 1 + 1 * (y 0).val = (y 0).val; omega
    | ⟨1, _⟩ => show win2_2.index t (1 : Fin 2) * 300 + 1 * (y 1).val = (y 1).val; omega

/-- Membership of an output index in the block point t writes: on each axis the coordinate lies in the half-open range
    that starts at the block's position times the block's extent and has the block's extent as length. -/
theorem mem_blk (t : Fin cfg2.N) (i : S50000x300.Idx) :
    i ∈ ((cfg2.win 3).blk t).view.set ↔ ∀ a : Fin 2, win2_3.index t a * S5000x300.size a ≤ (i a).val ∧ (i a).val < win2_3.index t a * S5000x300.size a + S5000x300.size a := by
  show i ∈ ((View.whole main_v34).slice (win2_3.rect t)).set ↔ _
  rw [View.set_slice_whole, Rect.mem_set_unit]
  exact Iff.rfl

/-- The ten blocks of 5000 rows exhaust the 50000 rows: row r is written by the point ⌊r / 5000⌋, and every point
    writes its block back. -/
theorem cover (i : S50000x300.Idx) : ∃ t : Fin cfg2.N, (cfg2.win 3).flush t = true ∧ i ∈ ((cfg2.win 3).blk t).view.set := by
  have hi0 : (i 0).val < 50000 := (i 0).isLt
  have hi1 : (i 1).val < 300 := (i 1).isLt
  have hN : (i 0).val / 5000 < cfg2.N := by rw [show cfg2.N = grid2.N from rfl, N_2]; omega
  refine ⟨⟨(i 0).val / 5000, hN⟩, flush2_3 _, ?_⟩
  rw [mem_blk]
  obtain ⟨-, -, -, -, -, -, eo0, eo1⟩ := idx_facts ⟨(i 0).val / 5000, hN⟩
  intro a
  match a with
  | ⟨0, _⟩ => show win2_3.index _ (0 : Fin 2) * 5000 ≤ (i 0).val ∧ (i 0).val < win2_3.index _ (0 : Fin 2) * 5000 + 5000; rw [eo0]; show (i 0).val / 5000 * 5000 ≤ (i 0).val ∧ (i 0).val < (i 0).val / 5000 * 5000 + 5000; omega
  | ⟨1, _⟩ => show win2_3.index _ (1 : Fin 2) * 300 ≤ (i 1).val ∧ (i 1).val < win2_3.index _ (1 : Fin 2) * 300 + 300; rw [eo1]; omega

/-- After the launch the output array holds G of the three operand arrays as they stood when the launch began. -/
theorem final (c : Dev nD) :
    (dat2 V c).arrAt 3 cfg2.N = G (V c main_v31) (V c main_v32) (V c main_v33) :=
  (dat2 V c).arrAt_eq_of_cover 3 _ (fun t _ => flushed_eq V c t) cover

end Cert.KernelIdeal.Region2

end
-- ==== Proof.KerGlue.lean ====
/-
  The kernel's launches see a layer's weights as two transposed halves and its bias as a one-row matrix. Entry (k, q)
  of the left half transposed is W[q, k], of the right half W[q, 300 + k], and entry (0, q) of the bias row is b[q]; so
  a launch's function of those operands, entry by entry, is the specification's function of the original arrays:
  layer 1 with the rectifier, layer 2, and the dense layer with tanh.
-/
import proofs.«118399_j1486058684815_1_alg».proof.Proof.KerApply
import Idealize.ShloMosaic.Lib.ValueIdx

noncomputable section

open scoped BigOperators

namespace Cert.KernelIdeal.Stages

open Idealize.ShloMosaic Idealize.ShloMosaic.ValueIdx Cert.KernelIdeal Cert.KernelIdeal.Facts₀

/-- One entry of a layer before its activation, from the transposed halves and the bias row, is the specification's
    entry from the original weights and bias. -/
private theorem lin_glue (agg : (Cert.Gcn.SN.Idx → EReal) → Cert.Gcn.SN.Idx → EReal) (x : TF S50000x300) (W : TF S300x600) (b : TF S300)
    (p : Fin 50000) (q : Fin 300) :
    Cert.Gcn.linAt (fun k => x (ix2 p k)) (fun k => agg x (ix2 p k)) (fun k => waT W (ix2 k q)) (fun k => wbT W (ix2 k q)) (brow b (ix2 0 q))
      = Cert.Gcn.layerAt agg x W b p q := by
  unfold Cert.Gcn.layerAt
  simp only [waT_apply, wbT_apply, brow_apply]

/-- One entry of the dense layer before its activation, from the transposed weights and the bias row, is the
    specification's entry from the original weights and bias. -/
private theorem dense_glue (x : TF S50000x300) (W : TF S300x300) (b : TF S300) (p : Fin 50000) (q : Fin 300) :
    Cert.Gcn.denseAt (fun k => x (ix2 p k)) (fun k => wT W (ix2 k q)) (brow b (ix2 0 q))
      = Cert.Gcn.denseAt (fun k => x (ix2 p k)) (fun k => W (ix2 q k)) (b (ix1 q)) := by
  simp only [wT_apply, brow_apply]

theorem glue1 (agg : (Cert.Gcn.SN.Idx → EReal) → Cert.Gcn.SN.Idx → EReal) (x : TF S50000x300) (W : TF S300x600) (b : TF S300) :
    (fun i : S50000x300.Idx => Cert.Gcn.lrelu1 (Cert.Gcn.linAt (fun k => x (ix2 (i 0) k)) (fun k => agg x (ix2 (i 0) k)) (fun k => waT W (ix2 k (i 1))) (fun k => wbT W (ix2 k (i 1))) (brow b (ix2 0 (i 1))))) = Cert.Gcn.H1 agg x W b :=
  funext fun i => congrArg Cert.Gcn.lrelu1 (lin_glue agg x W b (i 0) (i 1))

theorem glue2 (agg : (Cert.Gcn.SN.Idx → EReal) → Cert.Gcn.SN.Idx → EReal) (x : TF S50000x300) (W : TF S300x600) (b : TF S300) :
    (fun i : S50000x300.Idx => Cert.Gcn.linAt (fun k => x (ix2 (i 0) k)) (fun k => agg x (ix2 (i 0) k)) (fun k => waT W (ix2 k (i 1))) (fun k => wbT W (ix2 k (i 1))) (brow b (ix2 0 (i 1)))) = Cert.Gcn.H2 agg x W b :=
  funext fun i => lin_glue agg x W b (i 0) (i 1)

theorem glue3 (x : TF S50000x300) (W : TF S300x300) (b : TF S300) :
    (fun i : S50000x300.Idx => Ideal.tanh (Cert.Gcn.denseAt (fun k => x (ix2 (i 0) k)) (fun k => wT W (ix2 k (i 1))) (brow b (ix2 0 (i 1))))) = Cert.Gcn.H3 x W b :=
  funext fun i => congrArg Ideal.tanh (dense_glue x W b (i 0) (i 1))

end Cert.KernelIdeal.Stages

end
-- ==== Proof.KerValue.lean ====
/-
  The kernel program's result as one function of its arguments. The first launch's output array is the first layer with
  the rectifier of the input features; the second launch's is the second layer of that; the third's is the dense layer
  with tanh of that; the result buffer is the normalisation of the last. Each step reads a launch's output through its
  ten blocks as one array, reads the launch's operands at the boundary before it, and restates the launch's function of
  transposed weight halves and a bias row as the layer's function of the original weights and bias.
-/
import proofs.«118399_j1486058684815_1_alg».proof.Proof.KerHost
import proofs.«118399_j1486058684815_1_alg».proof.Proof.KerRegion0
import proofs.«118399_j1486058684815_1_alg».proof.Proof.KerRegion1
import proofs.«118399_j1486058684815_1_alg».proof.Proof.KerRegion2
import proofs.«118399_j1486058684815_1_alg».proof.Proof.KerGlue

set_option maxRecDepth 16384

noncomputable section

namespace Cert.KernelIdeal.KerValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first launch its output array holds layer 1 with the rectifier. -/
theorem layer1 (c : Dev nD) :
    W2 m ρ c (Proc.devRef .tc main_v15) = Cert.Gcn.H1 (Stages.agg (m ((c : Thread nD τ).loc main_arg1)) (m ((c : Thread nD τ).loc main_arg2))) (m ((c : Thread nD τ).loc main_arg0)) (m ((c : Thread nD τ).loc main_arg3)) (m ((c : Thread nD τ).loc main_arg4)) := by
  rw [KerHost.W2_v15, Region0.final (V1 m ρ) c]
  show Region0.G (W1 m ρ c (Proc.devRef .tc main_arg0)) (W1 m ρ c (Proc.devRef .tc main_v9)) (W1 m ρ c (Proc.devRef .tc main_v11))
    (W1 m ρ c (Proc.devRef .tc main_v13)) (W1 m ρ c (Proc.devRef .tc main_v14)) = _
  rw [KerHost.W1_arg0, KerHost.W1_v9, KerHost.W1_v11, KerHost.W1_v13, KerHost.W1_v14]
  exact Stages.glue1 (Stages.agg (m ((c : Thread nD τ).loc main_arg1)) (m ((c : Thread nD τ).loc main_arg2))) (m ((c : Thread nD τ).loc main_arg0)) (m ((c : Thread nD τ).loc main_arg3)) (m ((c : Thread nD τ).loc main_arg4))

/-- After the second launch its output array holds layer 2 of layer 1's output. -/
theorem layer2 (c : Dev nD) :
    W4 m ρ c (Proc.devRef .tc main_v31)
      = Cert.Gcn.H2 (Stages.agg (m ((c : Thread nD τ).loc main_arg1)) (m ((c : Thread nD τ).loc main_arg2))) (Cert.Gcn.H1 (Stages.agg (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6)) := by
  rw [KerHost.W4_v31, Region1.final (V3 m ρ) c]
  show Region1.G (W3 m ρ c (Proc.devRef .tc main_v15)) (W3 m ρ c (Proc.devRef .tc main_v25)) (W3 m ρ c (Proc.devRef .tc main_v27))
    (W3 m ρ c (Proc.devRef .tc main_v29)) (W3 m ρ c (Proc.devRef .tc main_v30)) = _
  rw [KerHost.W3_v15, KerHost.W3_v25, KerHost.W3_v27, KerHost.W3_v29, KerHost.W3_v30, layer1]
  exact Stages.glue2 (Stages.agg (m ((c : Thread nD τ).loc main_arg1)) (m ((c : Thread nD τ).loc main_arg2))) (Cert.Gcn.H1 (Stages.agg (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))

/-- After the third launch its output array holds the dense layer with tanh of layer 2's output. -/
theorem layer3 (c : Dev nD) :
    W6 m ρ c (Proc.devRef .tc main_v34)
      = Cert.Gcn.H3 (Cert.Gcn.H2 (Stages.agg (m ((c : Thread nD τ).loc main_arg1)) (m ((c : Thread nD τ).loc main_arg2))) (Cert.Gcn.H1 (Stages.agg (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) := by
  rw [KerHost.W6_v34, Region2.final (V5 m ρ) c]
  show Region2.G (W5 m ρ c (Proc.devRef .tc main_v31)) (W5 m ρ c (Proc.devRef .tc main_v32)) (W5 m ρ c (Proc.devRef .tc main_v33)) = _
  rw [KerHost.W5_v31, KerHost.W5_v32, KerHost.W5_v33, layer2]
  exact Stages.glue3 (Cert.Gcn.H2 (Stages.agg (m ((c : Thread nD τ).loc main_arg1)) (m ((c : Thread nD τ).loc main_arg2))) (Cert.Gcn.H1 (Stages.agg (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))

/-- The result buffer at the last boundary: the network's output, normalised. -/
theorem result (c : Dev nD) :
    W7 m ρ c (Proc.devRef .tc main_v39)
      = Stages.tail (Cert.Gcn.net (Stages.agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [KerHost.W7_v39, layer3]
  rfl

end Cert.KernelIdeal.KerValue

end
-- ==== Proof.RefStages.lean ====
/-
  The reference program's stages as whole-array terms at the extended reals: each definition is the composition of the
  host operations the program applies, in its own order, named after what it computes. The neighbour aggregation
  (`agg`) repairs negative source indices, gathers the source rows and sums them into the destination rows; a layer
  (`layer`) concatenates the features with their aggregate into rows of length 600, multiplies by the transposed
  weights and adds the bias; `leaky` is the rectifier with slope literal; `dense` the last 300 × 300 layer with tanh;
  `tail` divides an array by the square root of the sum of its squares.
-/
import proofs.«118399_j1486058684815_1_alg».proof.Proof.Gen.ReferenceIdeal
import proofs.«118399_j1486058684815_1_alg».proof.Proof.Spec

noncomputable section

namespace Cert.ReferenceIdeal.Stages

open Idealize.ShloMosaic Cert.ReferenceIdeal Cert.ReferenceIdeal.Facts₀

/-- A float array of shape `s` at the extended reals. -/
abbrev TF (s : Shape) : Type := FVec Ideal s .f32
/-- A 32-bit integer array of shape `s`. -/
abbrev TI (s : Shape) : Type := IVec s 32

/-- Source indices with a negative index wrapped by the node count, as a column. -/
def fixIdx (src : TI S800000) : TI S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour aggregation: source rows gathered, then summed into their destination rows from zero. -/
def agg (src dst : TI S800000) (x : TF S50000x300) : TF S50000x300 :=
  Host.scatterAdd scatter_S50000x300_S800000x1_S800000x300_1_0_0_1
    (broadcastInDim S50000x300 ![] bcast_S_S50000x300 (constant S_ .f32 0x00000000#32))
    (broadcastInDim S800000x1 ![0] bcast_S800000_S800000x1_0 dst)
    (Host.gather gather_S50000x300_S800000x1_S800000x300_1_0_n_n_0_1_1300 x (fixIdx src))

/-- One layer before its activation: (x ‖ agg x) · Wᵀ + b. -/
def layer (src dst : TI S800000) (x : TF S50000x300) (W : TF S300x600) (b : TF S300) : TF S50000x300 :=
  addf
    (Host.dotGeneral dot_S50000x600_S600x300_S50000x300_1_0_0_1_n_n none
      (concatenate S50000x600 1 [⟨S50000x300, x⟩, ⟨S50000x300, agg src dst x⟩] concatenates_S50000x300_S50000x300_S50000x600_d1)
      (transpose S600x300 [1, 0] W transposes_S300x600_S600x300_1_0))
    (broadcastInDim S50000x300 ![0, 1] bcast_S1x300_S50000x300_0_1 (broadcastInDim S1x300 ![1] bcast_S300_S1x300_1 b))

/-- The leaky rectifier, entry by entry. -/
def leaky (X : TF S50000x300) : TF S50000x300 :=
  select (cmpf .oge X (broadcastInDim S50000x300 ![] bcast_S_S50000x300 (constant S_ .f32 0x00000000#32))) X
    (mulf (broadcastInDim S50000x300 ![] bcast_S_S50000x300 (id (constant S_ .f32 0x3C23D70A#32))) X)

/-- The dense layer with tanh: tanh (x · Wᵀ + b). -/
def dense (x : TF S50000x300) (W : TF S300x300) (b : TF S300) : TF S50000x300 :=
  Host.tanh (addf
    (Host.dotGeneral dot_S50000x300_S300x300_S50000x300_1_0_0_1_n_n none x (transpose S300x300 [1, 0] W transposes_S300x300_S300x300_1_0))
    (broadcastInDim S50000x300 ![0, 1] bcast_S1x300_S50000x300_0_1 (broadcastInDim S1x300 ![1] bcast_S300_S1x300_1 b)))

/-- An array divided by the square root of the sum of its squares. -/
def tail (h : TF S50000x300) : TF S50000x300 :=
  Host.divf h (broadcastInDim S50000x300 ![] bcast_S_S50000x300
    (Host.sqrt (Host.reduceAdd (mulf h h) (constant S_ .f32 0x00000000#32) reducesTo_S50000x300_S_d0_1 h_S_)))

/-- The whole program's result from its nine arguments. -/
def out (a0 : TF S50000x300) (a1 a2 : TI S800000) (a3 : TF S300x600) (a4 : TF S300) (a5 : TF S300x600) (a6 : TF S300)
    (a7 : TF S300x300) (a8 : TF S300) : TF S50000x300 :=
  tail (dense (layer a1 a2 (leaky (layer a1 a2 a0 a3 a4)) a5 a6) a7 a8)

end Cert.ReferenceIdeal.Stages

end
-- ==== Proof.RefRun.lean ====
/-
  The reference program's run, read back: from any memory, every weakly fair execution of its @main terminates without
  a fault, its result buffer ends holding the composition of its host operations applied to the argument arrays
  (`Stages.out`), and the arguments end unchanged. The two outlined functions (the leaky rectifier with its select, and
  the norm) are read inline at their call sites.
-/
import proofs.«118399_j1486058684815_1_alg».proof.Proof.RefStages
import Idealize.ShloMosaic.Lib.StableHlo.Run
import Idealize.ShloMosaic.Adequacy
import Idealize.ShloMosaic.Init

noncomputable section

namespace Cert.ReferenceIdeal.RefRun

open Idealize.ShloMosaic Idealize.SL.Sem Cert.ReferenceIdeal

section Line

variable {F : FTy → Type} [FloatOps F]

open Cert.ReferenceIdeal.Facts₀ in
/-- @main's fifty-eight host operations in program order, the two outlined functions' operations listed at their
    call sites over the calls' buffer records: twenty of @main up to the slope literal, the rectifier's six and its
    select, twenty-five of @main through tanh, the norm's four, the broadcast and the division. -/
private abbrev ops : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg1 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg1 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x300_S800000x1_S800000x300_1_0_n_n_0_1_1300 x i) : (⟨S50000x300, .f32⟩ : BufTy).Contents (Elt F) → (⟨S800000x1, .i32⟩ : BufTy).Contents (Elt F) → (⟨S800000x300, .f32⟩ : BufTy).Contents (Elt F)),
    StableHlo.nullary main_cst (constant S_ .f32 0x00000000#32),
    StableHlo.unary main_cst main_v7 (broadcastInDim S50000x300 ![] bcast_S_S50000x300 : (⟨S_, .f32⟩ : BufTy).Contents (Elt F) → (⟨S50000x300, .f32⟩ : BufTy).Contents (Elt F)),
    StableHlo.unary main_arg2 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x300_S800000x1_S800000x300_1_0_0_1 x i u) : (⟨S50000x300, .f32⟩ : BufTy).Contents (Elt F) → (⟨S800000x1, .i32⟩ : BufTy).Contents (Elt F) → (⟨S800000x300, .f32⟩ : BufTy).Contents (Elt F) → (⟨S50000x300, .f32⟩ : BufTy).Contents (Elt F)),
    StableHlo.binary main_arg0 main_v9 main_v10 ((fun a b => concatenate S50000x600 1 [⟨S50000x300, a⟩, ⟨S50000x300, b⟩] concatenates_S50000x300_S50000x300_S50000x600_d1) : (⟨S50000x300, .f32⟩ : BufTy).Contents (Elt F) → (⟨S50000x300, .f32⟩ : BufTy).Contents (Elt F) → (⟨S50000x600, .f32⟩ : BufTy).Contents (Elt F)),
    StableHlo.unary main_arg3 main_v11 ((transpose S600x300 [1, 0] · transposes_S300x600_S600x300_1_0) : (⟨S300x600, .f32⟩ : BufTy).Contents (Elt F) → (⟨S600x300, .f32⟩ : BufTy).Contents (Elt F)),
    StableHlo.binary main_v10 main_v11 main_v12 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    StableHlo.unary main_arg4 main_v13 (broadcastInDim S1x300 ![1] bcast_S300_S1x300_1 : (⟨S300, .f32⟩ : BufTy).Contents (Elt F) → (⟨S1x300, .f32⟩ : BufTy).Contents (Elt F)),
    StableHlo.unary main_v13 main_v14 (broadcastInDim S50000x300 ![0, 1] bcast_S1x300_S50000x300_0_1 : (⟨S1x300, .f32⟩ : BufTy).Contents (Elt F) → (⟨S50000x300, .f32⟩ : BufTy).Contents (Elt F)),
    StableHlo.binary main_v12 main_v14 main_v15 (addf : (⟨S50000x300, .f32⟩ : BufTy).Contents (Elt F) → (⟨S50000x300, .f32⟩ : BufTy).Contents (Elt F) → (⟨S50000x300, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S50000x300 ![] bcast_S_S50000x300),
    StableHlo.TRef.binary (.of main_v15 : StableHlo.TRef sig ⟨S50000x300, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S50000x300 ![] bcast_S_S50000x300),
    StableHlo.TRef.binary main_call0.v3 (.of main_v15 : StableHlo.TRef sig ⟨S50000x300, .f32⟩) main_call0.v4 mulf,
    StableHlo.TRef.ternary main_call0.v1 (.of main_v15 : StableHlo.TRef sig ⟨S50000x300, .f32⟩) main_call0.v4 main_call0.call0.v0 select,
    StableHlo.nullary main_c_2 (constantI S_ 32 0#32),
    StableHlo.unary main_c_2 main_v17 (broadcastInDim S800000 ![] bcast_S_S800000 : (⟨S_, .i32⟩ : BufTy).Contents (Elt F) → (⟨S800000, .i32⟩ : BufTy).Contents (Elt F)),
    StableHlo.binary main_arg1 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v19 (broadcastInDim S800000 ![] bcast_S_S800000 : (⟨S_, .i32⟩ : BufTy).Contents (Elt F) → (⟨S800000, .i32⟩ : BufTy).Contents (Elt F)),
    StableHlo.binary main_arg1 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_arg1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x300_S800000x1_S800000x300_1_0_n_n_0_1_1300 x i) : (⟨S50000x300, .f32⟩ : BufTy).Contents (Elt F) → (⟨S800000x1, .i32⟩ : BufTy).Contents (Elt F) → (⟨S800000x300, .f32⟩ : BufTy).Contents (Elt F)),
    StableHlo.nullary main_cst_4 (constant S_ .f32 0x00000000#32),
    StableHlo.unary main_cst_4 main_v24 (broadcastInDim S50000x300 ![] bcast_S_S50000x300 : (⟨S_, .f32⟩ : BufTy).Contents (Elt F) → (⟨S50000x300, .f32⟩ : BufTy).Contents (Elt F)),
    StableHlo.unary main_arg2 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x300_S800000x1_S800000x300_1_0_0_1 x i u) : (⟨S50000x300, .f32⟩ : BufTy).Contents (Elt F) → (⟨S800000x1, .i32⟩ : BufTy).Contents (Elt F) → (⟨S800000x300, .f32⟩ : BufTy).Contents (Elt F) → (⟨S50000x300, .f32⟩ : BufTy).Contents (Elt F)),
    StableHlo.binary main_v16 main_v26 main_v27 ((fun a b => concatenate S50000x600 1 [⟨S50000x300, a⟩, ⟨S50000x300, b⟩] concatenates_S50000x300_S50000x300_S50000x600_d1) : (⟨S50000x300, .f32⟩ : BufTy).Contents (Elt F) → (⟨S50000x300, .f32⟩ : BufTy).Contents (Elt F) → (⟨S50000x600, .f32⟩ : BufTy).Contents (Elt F)),
    StableHlo.unary main_arg5 main_v28 ((transpose S600x300 [1, 0] · transposes_S300x600_S600x300_1_0) : (⟨S300x600, .f32⟩ : BufTy).Contents (Elt F) → (⟨S600x300, .f32⟩ : BufTy).Contents (Elt F)),
    StableHlo.binary main_v27 main_v28 main_v29 ((fun l r => Host.dotGeneral dot_S50000x600_S600x300_S50000x300_1_0_0_1_n_n none l r) : (⟨S50000x600, .f32⟩ : BufTy).Contents (Elt F) → (⟨S600x300, .f32⟩ : BufTy).Contents (Elt F) → (⟨S50000x300, .f32⟩ : BufTy).Contents (Elt F)),
    StableHlo.unary main_arg6 main_v30 (broadcastInDim S1x300 ![1] bcast_S300_S1x300_1 : (⟨S300, .f32⟩ : BufTy).Contents (Elt F) → (⟨S1x300, .f32⟩ : BufTy).Contents (Elt F)),
    StableHlo.unary main_v30 main_v31 (broadcastInDim S50000x300 ![0, 1] bcast_S1x300_S50000x300_0_1 : (⟨S1x300, .f32⟩ : BufTy).Contents (Elt F) → (⟨S50000x300, .f32⟩ : BufTy).Contents (Elt F)),
    StableHlo.binary main_v29 main_v31 main_v32 (addf : (⟨S50000x300, .f32⟩ : BufTy).Contents (Elt F) → (⟨S50000x300, .f32⟩ : BufTy).Contents (Elt F) → (⟨S50000x300, .f32⟩ : BufTy).Contents (Elt F)),
    StableHlo.unary main_arg7 main_v33 ((transpose S300x300 [1, 0] · transposes_S300x300_S300x300_1_0) : (⟨S300x300, .f32⟩ : BufTy).Contents (Elt F) → (⟨S300x300, .f32⟩ : BufTy).Contents (Elt F)),
    StableHlo.binary main_v32 main_v33 main_v34 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v35 (broadcastInDim S1x300 ![1] bcast_S300_S1x300_1 : (⟨S300, .f32⟩ : BufTy).Contents (Elt F) → (⟨S1x300, .f32⟩ : BufTy).Contents (Elt F)),
    StableHlo.unary main_v35 main_v36 (broadcastInDim S50000x300 ![0, 1] bcast_S1x300_S50000x300_0_1 : (⟨S1x300, .f32⟩ : BufTy).Contents (Elt F) → (⟨S50000x300, .f32⟩ : BufTy).Contents (Elt F)),
    StableHlo.binary main_v34 main_v36 main_v37 (addf : (⟨S50000x300, .f32⟩ : BufTy).Contents (Elt F) → (⟨S50000x300, .f32⟩ : BufTy).Contents (Elt F) → (⟨S50000x300, .f32⟩ : BufTy).Contents (Elt F)),
    StableHlo.unary main_v37 main_v38 (Host.tanh : (⟨S50000x300, .f32⟩ : BufTy).Contents (Elt F) → (⟨S50000x300, .f32⟩ : BufTy).Contents (Elt F)),
    StableHlo.TRef.binary (.of main_v38 : StableHlo.TRef sig ⟨S50000x300, .f32⟩) (.of main_v38 : StableHlo.TRef sig ⟨S50000x300, .f32⟩) main_call1.v0 mulf,
    StableHlo.TRef.nullary main_call1.cst (constant S_ .f32 0x00000000#32),
    StableHlo.TRef.binary main_call1.v0 main_call1.cst main_call1.v1 (fun x v => Host.reduceAdd x v reducesTo_S50000x300_S_d0_1 h_S_),
    StableHlo.TRef.unary main_call1.v1 main_call1.v2 Host.sqrt,
    StableHlo.unary main_v39 main_v40 (broadcastInDim S50000x300 ![] bcast_S_S50000x300 : (⟨S_, .f32⟩ : BufTy).Contents (Elt F) → (⟨S50000x300, .f32⟩ : BufTy).Contents (Elt F)),
    StableHlo.binary main_v38 main_v40 main_v41 (Host.divf : (⟨S50000x300, .f32⟩ : BufTy).Contents (Elt F) → (⟨S50000x300, .f32⟩ : BufTy).Contents (Elt F) → (⟨S50000x300, .f32⟩ : BufTy).Contents (Elt F)) ]

set_option maxRecDepth 8192 in
/-- @main is that straight line: the two functions' definitions unfolded at their calls and the records at their
    fields, both sides are one chain of host steps once sequencing is reassociated. -/
private theorem main_eq (c : Dev nD) : main (F := F) c = StableHlo.seq ops := by
  simp only [main, fn_leaky_relu.body, fn_where.body, fn_norm.body, StableHlo.seq, bind_assoc, pure_bind]

/-- The signature scopes no TensorCore buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- Every operation touches TensorCore references only. -/
private theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub ..⟩

end Line

/-- A concatenation of two arrays depends only on the two arrays: equal pieces give equal concatenations. -/
private theorem cat2_congr {α : Type} (t : Shape) (a : Fin t.rank) (s₁ s₂ : Shape) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

attribute [local congr] cat2_congr in
set_option maxRecDepth 16384 in
set_option maxHeartbeats 1000000 in
/-- What the result buffer holds after the fifty-eight operations, from contents `V`: each operation's value is its
    function of the buffers it reads, every other buffer keeps what it held, and the typed references' transports
    are the identity at these literal references — the composition is `Stages.out` of the nine argument arrays. -/
private theorem out_eq (V : Valuation τ sig (Elt Ideal)) :
    StableHlo.after (ops (F := Ideal)) V (Proc.devRef .tc main_v41) = Stages.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

/-! No operation writes an argument buffer: each of the fifty-eight result buffers is a different reference. -/

private theorem arg0_eq (V : Valuation τ sig (Elt Ideal)) :
    StableHlo.after (ops (F := Ideal)) V (Proc.devRef .tc main_arg0) = V (Proc.devRef .tc main_arg0) := by
  after_results_simp
private theorem arg1_eq (V : Valuation τ sig (Elt Ideal)) :
    StableHlo.after (ops (F := Ideal)) V (Proc.devRef .tc main_arg1) = V (Proc.devRef .tc main_arg1) := by
  after_results_simp
private theorem arg2_eq (V : Valuation τ sig (Elt Ideal)) :
    StableHlo.after (ops (F := Ideal)) V (Proc.devRef .tc main_arg2) = V (Proc.devRef .tc main_arg2) := by
  after_results_simp
private theorem arg3_eq (V : Valuation τ sig (Elt Ideal)) :
    StableHlo.after (ops (F := Ideal)) V (Proc.devRef .tc main_arg3) = V (Proc.devRef .tc main_arg3) := by
  after_results_simp
private theorem arg4_eq (V : Valuation τ sig (Elt Ideal)) :
    StableHlo.after (ops (F := Ideal)) V (Proc.devRef .tc main_arg4) = V (Proc.devRef .tc main_arg4) := by
  after_results_simp
private theorem arg5_eq (V : Valuation τ sig (Elt Ideal)) :
    StableHlo.after (ops (F := Ideal)) V (Proc.devRef .tc main_arg5) = V (Proc.devRef .tc main_arg5) := by
  after_results_simp
private theorem arg6_eq (V : Valuation τ sig (Elt Ideal)) :
    StableHlo.after (ops (F := Ideal)) V (Proc.devRef .tc main_arg6) = V (Proc.devRef .tc main_arg6) := by
  after_results_simp
private theorem arg7_eq (V : Valuation τ sig (Elt Ideal)) :
    StableHlo.after (ops (F := Ideal)) V (Proc.devRef .tc main_arg7) = V (Proc.devRef .tc main_arg7) := by
  after_results_simp
private theorem arg8_eq (V : Valuation τ sig (Elt Ideal)) :
    StableHlo.after (ops (F := Ideal)) V (Proc.devRef .tc main_arg8) = V (Proc.devRef .tc main_arg8) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v41).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (StableHlo.run_seq scopedRefs_eq scopedSems_eq defs main (fun _ => ops) main_eq (fun _ => ops_sub) m ρ)

end Cert.ReferenceIdeal.RefRun

end
-- ==== Proof.RefApply.lean ====
/-
  The reference's stages read at one entry: a layer's entry (p, q) is the specification's (the product of the
  concatenated row of length 600 with a weight row splits into its two halves), the rectifier and the dense layer
  entry by entry, and so the whole program's result is the closing normalisation of the specified network.
-/
import proofs.«118399_j1486058684815_1_alg».proof.Proof.RefStages
import proofs.«118399_j1486058684815_1_alg».proof.Proof.LibDotPlain
import Idealize.ShloMosaic.PureOps.Ideal.Laws
import Idealize.ShloMosaic.Lib.Pipeline.Value
import Idealize.ShloMosaic.Lib.ValueIdx

noncomputable section

open scoped BigOperators

namespace Cert.ReferenceIdeal.Stages

open Idealize.ShloMosaic Idealize.ShloMosaic.ValueIdx Cert.ReferenceIdeal Cert.ReferenceIdeal.Facts₀

/-- The 600-deep product at entry (p, q): the sum over the contracted coordinate of left row p against right column q. -/
private theorem dot600_apply (l : TF S50000x600) (r : TF S600x300) (p : Fin 50000) (q : Fin 300) :
    Host.dotGeneral dot_S50000x600_S600x300_S50000x300_1_0_0_1_n_n none l r (ix2 p q) = ∑ k : Fin 600, l (ix2 p k) * r (ix2 k q) := by
  refine (Ideal.dotGeneral_apply _ none .single l r (ix2 p q)).trans ?_
  exact Cert.LibDotPlain.sum_contr_plain (N := 50000) (K := 600) (M := 300) dot_S50000x600_S600x300_S50000x300_1_0_0_1_n_n
    (by rfl) (by rfl)
    (fun i k => by simp [DotDims.lhsIdx, dot_S50000x600_S600x300_S50000x300_1_0_0_1_n_n]; rfl)
    (fun i k => DotDims.lhsIdx_val_of_single _ rfl i k)
    (fun i k => DotDims.rhsIdx_val_of_single _ rfl i k)
    (fun i k => by simp [DotDims.rhsIdx, dot_S50000x600_S600x300_S50000x300_1_0_0_1_n_n]; rfl)
    l r p q

/-- The 300-deep product at entry (p, q). -/
private theorem dot300_apply (l : TF S50000x300) (r : TF S300x300) (p : Fin 50000) (q : Fin 300) :
    Host.dotGeneral dot_S50000x300_S300x300_S50000x300_1_0_0_1_n_n none l r (ix2 p q) = ∑ k : Fin 300, l (ix2 p k) * r (ix2 k q) := by
  refine (Ideal.dotGeneral_apply _ none .single l r (ix2 p q)).trans ?_
  exact Cert.LibDotPlain.sum_contr_plain (N := 50000) (K := 300) (M := 300) dot_S50000x300_S300x300_S50000x300_1_0_0_1_n_n
    (by rfl) (by rfl)
    (fun i k => by simp [DotDims.lhsIdx, dot_S50000x300_S300x300_S50000x300_1_0_0_1_n_n]; rfl)
    (fun i k => DotDims.lhsIdx_val_of_single _ rfl i k)
    (fun i k => DotDims.rhsIdx_val_of_single _ rfl i k)
    (fun i k => by simp [DotDims.rhsIdx, dot_S50000x300_S300x300_S50000x300_1_0_0_1_n_n]; rfl)
    l r p q

/-- The row (x ‖ y) read in its left half is x. -/
private theorem concat_lo (x y : TF S50000x300) (p : Fin 50000) (k : Fin 300) :
    concatenate S50000x600 1 [⟨S50000x300, x⟩, ⟨S50000x300, y⟩] concatenates_S50000x300_S50000x300_S50000x600_d1 (ix2 p (Cert.Gcn.lo k))
      = x (ix2 p k) :=
  concatenate_pair_apply_left (1 : Fin S50000x600.rank) x y concatenates_S50000x300_S50000x300_S50000x600_d1 (ix2 p (Cert.Gcn.lo k)) rfl (ix2 p k)
    (fun b => by match b with
      | ⟨0, _⟩ => rfl
      | ⟨1, _⟩ => rfl)

/-- The row (x ‖ y) read in its right half is y. -/
private theorem concat_hi (x y : TF S50000x300) (p : Fin 50000) (k : Fin 300) :
    concatenate S50000x600 1 [⟨S50000x300, x⟩, ⟨S50000x300, y⟩] concatenates_S50000x300_S50000x300_S50000x600_d1 (ix2 p (Cert.Gcn.hi k))
      = y (ix2 p k) :=
  concatenate_pair_apply_right (1 : Fin S50000x600.rank) x y concatenates_S50000x300_S50000x300_S50000x600_d1 (ix2 p (Cert.Gcn.hi k)) rfl rfl (ix2 p k)
    (fun b hb => by match b with
      | ⟨0, _⟩ => rfl
      | ⟨1, _⟩ => exact absurd rfl hb)
    (by show k.val + 300 = 300 + k.val; omega)

/-- The transposed layer weights at (k, q) are the weights at (q, k). -/
private theorem transW_apply (W : TF S300x600) (k : Fin 600) (q : Fin 300) :
    transpose S600x300 [1, 0] W transposes_S300x600_S600x300_1_0 (ix2 k q) = W (ix2 q k) :=
  transpose_apply [1, 0] W transposes_S300x600_S600x300_1_0 (ix2 k q) (ix2 q k)
    (fun b => by match b with
      | ⟨0, _⟩ => rfl
      | ⟨1, _⟩ => rfl)

/-- The transposed dense weights at (k, q) are the weights at (q, k). -/
private theorem transQ_apply (W : TF S300x300) (k : Fin 300) (q : Fin 300) :
    transpose S300x300 [1, 0] W transposes_S300x300_S300x300_1_0 (ix2 k q) = W (ix2 q k) :=
  transpose_apply [1, 0] W transposes_S300x300_S300x300_1_0 (ix2 k q) (ix2 q k)
    (fun b => by match b with
      | ⟨0, _⟩ => rfl
      | ⟨1, _⟩ => rfl)

/-- The bias broadcast over the rows, at (p, q), is b[q]. -/
private theorem bias_apply (b : TF S300) (p : Fin 50000) (q : Fin 300) :
    broadcastInDim S50000x300 ![0, 1] bcast_S1x300_S50000x300_0_1 (broadcastInDim S1x300 ![1] bcast_S300_S1x300_1 b) (ix2 p q) = b (ix1 q) := by
  rw [broadcastInDim_apply ![0, 1] bcast_S1x300_S50000x300_0_1 _ (ix2 p q) (ix2 (0 : Fin 1) q)
    (fun a => by match a with
      | ⟨0, _⟩ => rfl
      | ⟨1, _⟩ => rfl)]
  exact broadcastInDim_apply ![1] bcast_S300_S1x300_1 b (ix2 (0 : Fin 1) q) (ix1 q)
    (fun a => by match a with
      | ⟨0, _⟩ => rfl)

/-- Two arrays of node features that agree at every entry (p, q) are equal. -/
private theorem ext_ix2 {f g : TF S50000x300} (h : ∀ (p : Fin 50000) (q : Fin 300), f (ix2 p q) = g (ix2 p q)) : f = g :=
  funext fun i =>
    (congrArg f (eq_ix2 (n0 := 50000) (n1 := 300) i)).trans ((h (i 0) (i 1)).trans (congrArg g (eq_ix2 (n0 := 50000) (n1 := 300) i)).symm)

theorem layer_apply (src dst : TI S800000) (x : TF S50000x300) (W : TF S300x600) (b : TF S300) (p : Fin 50000) (q : Fin 300) :
    layer src dst x W b (ix2 p q) = Cert.Gcn.layerAt (agg src dst) x W b p q := by
  unfold layer
  rw [addf_apply, dot600_apply, bias_apply, Cert.Gcn.sum600]
  unfold Cert.Gcn.layerAt Cert.Gcn.linAt
  refine congrArg₂ (· + ·) (congrArg₂ (· + ·) ?_ ?_) rfl
  · exact Finset.sum_congr rfl fun k _ => by rw [concat_lo, transW_apply]
  · exact Finset.sum_congr rfl fun k _ => by rw [concat_hi, transW_apply]

theorem leaky_apply (X : TF S50000x300) (i : S50000x300.Idx) : leaky X i = Cert.Gcn.lrelu1 (X i) := by
  unfold leaky Cert.Gcn.lrelu1
  rfl

theorem dense_apply (x : TF S50000x300) (W : TF S300x300) (b : TF S300) (p : Fin 50000) (q : Fin 300) :
    dense x W b (ix2 p q) = Ideal.tanh (Cert.Gcn.denseAt (fun k => x (ix2 p k)) (fun k => W (ix2 q k)) (b (ix1 q))) := by
  unfold dense Host.tanh
  show FloatOps.hostUnary .tanh _ = _
  rw [Ideal.hostUnary_tanh_def, addf_apply, dot300_apply, bias_apply]
  unfold Cert.Gcn.denseAt
  refine congrArg Ideal.tanh (congrArg₂ (· + ·) ?_ rfl)
  exact Finset.sum_congr rfl fun k _ => by rw [transQ_apply]

theorem out_eq (a0 : TF S50000x300) (a1 a2 : TI S800000) (a3 : TF S300x600) (a4 : TF S300) (a5 : TF S300x600) (a6 : TF S300)
    (a7 : TF S300x300) (a8 : TF S300) :
    out a0 a1 a2 a3 a4 a5 a6 a7 a8 = tail (Cert.Gcn.net (agg a1 a2) a0 a3 a4 a5 a6 a7 a8) := by
  -- layer 1 with the rectifier, layer 2 and the dense layer are the specification's, entry by entry
  have h1 : leaky (layer a1 a2 a0 a3 a4) = Cert.Gcn.H1 (agg a1 a2) a0 a3 a4 :=
    ext_ix2 fun p q => by
      rw [leaky_apply, layer_apply]
      rfl
  have h2 : ∀ X : TF S50000x300, layer a1 a2 X a5 a6 = Cert.Gcn.H2 (agg a1 a2) X a5 a6 := fun X =>
    ext_ix2 fun p q => by
      rw [layer_apply]
      rfl
  have h3 : ∀ X : TF S50000x300, dense X a7 a8 = Cert.Gcn.H3 X a7 a8 := fun X =>
    ext_ix2 fun p q => by
      rw [dense_apply]
      rfl
  unfold out Cert.Gcn.net
  rw [h1, h2, h3]

end Cert.ReferenceIdeal.Stages

end
-- ==== Proof.Bridge.lean ====
/-
  The two programs apply the same host operations for the neighbour aggregation (repair of negative source indices,
  gather of the source rows, sum into the destination rows from zero) and for the closing normalisation (an array
  divided by the square root of the sum of its squares). Each program names its own copies of the shapes and of the
  gather's, the scatter's and the reduction's dimension numbers; the copies are equal field by field, so the two
  aggregations are one function and so are the two normalisations.
-/
import proofs.«118399_j1486058684815_1_alg».proof.Proof.KerStages
import proofs.«118399_j1486058684815_1_alg».proof.Proof.RefStages

noncomputable section

namespace Cert.Bridge

open Idealize.ShloMosaic

/-- The gather's dimension numbers are the same record in both programs. -/
private theorem gather_eq :
    Cert.KernelIdeal.gather_S50000x300_S800000x1_S800000x300_1_0_n_n_0_1_1300
      = Cert.ReferenceIdeal.gather_S50000x300_S800000x1_S800000x300_1_0_n_n_0_1_1300 := rfl

/-- The scatter's dimension numbers are the same record in both programs. -/
private theorem scatter_eq :
    Cert.KernelIdeal.scatter_S50000x300_S800000x1_S800000x300_1_0_0_1
      = Cert.ReferenceIdeal.scatter_S50000x300_S800000x1_S800000x300_1_0_0_1 := rfl

theorem agg_eq (src dst : Cert.KernelIdeal.Stages.TI Cert.KernelIdeal.S800000) (x : Cert.KernelIdeal.Stages.TF Cert.KernelIdeal.S50000x300) : Cert.KernelIdeal.Stages.agg src dst x = Cert.ReferenceIdeal.Stages.agg src dst x := by
  unfold Cert.KernelIdeal.Stages.agg Cert.ReferenceIdeal.Stages.agg Cert.KernelIdeal.Stages.fixIdx Cert.ReferenceIdeal.Stages.fixIdx
  rw [gather_eq, scatter_eq]

theorem tail_eq (h : Cert.KernelIdeal.Stages.TF Cert.KernelIdeal.S50000x300) : Cert.KernelIdeal.Stages.tail h = Cert.ReferenceIdeal.Stages.tail h := by
  unfold Cert.KernelIdeal.Stages.tail Cert.ReferenceIdeal.Stages.tail
  rfl

end Cert.Bridge

end
-- ==== Proof.lean ====
/-
  A two-layer graph network with a dense tanh layer and a closing normalisation, computed two ways.

  Both programs aggregate neighbour rows with the same host gather and scatter-add, apply the same leaky rectifier
  (same slope literal), the same tanh, and the same normalisation (division by the square root of the sum of squares).
  They differ in one arrangement: the reference multiplies the concatenated row (x[p,·], A(x)[p,·]) of length 600 by the
  600-column weight matrix in one sum, while the kernel cuts the weights into two transposed 300 × 300 halves and adds
  two products of 300 terms each, block of 5000 rows by block. At the extended reals a sum over 600 = 300 + 300 indices
  is the sum of its two halves, so entry by entry both are
      Σ_{k<300} x[p,k]·W[q,k] + Σ_{k<300} A(x)[p,k]·W[q,300+k] + b[q]
  before the activation; no finiteness of the inputs is used. The kernel's three launches are read as whole arrays
  (their ten row blocks tile the rows and each row of the output depends on the same row of the operands), the host
  stretches between them are read back operation by operation, and the reference's run is read back the same way; the
  two results are then the same normalisation of the same network function of the arguments.

  The three frames: the two kernel programs' are the generated ones; the reference's is its run with the result dropped.
  The idealization rewrote nothing, so what it must preserve is trivially true.
-/
import proofs.«118399_j1486058684815_1_alg».proof.Defs
import proofs.«118399_j1486058684815_1_alg».proof.Proof.Gen.Kernel
import proofs.«118399_j1486058684815_1_alg».proof.Proof.Gen.Kernel.Skeleton
import proofs.«118399_j1486058684815_1_alg».proof.Proof.Gen.Kernel.Launch
import proofs.«118399_j1486058684815_1_alg».proof.Proof.Gen.Kernel.Points
import proofs.«118399_j1486058684815_1_alg».proof.Proof.Gen.Kernel.Frame
import proofs.«118399_j1486058684815_1_alg».proof.Proof.Gen.KernelIdeal
import proofs.«118399_j1486058684815_1_alg».proof.Proof.Gen.KernelIdeal.Skeleton
import proofs.«118399_j1486058684815_1_alg».proof.Proof.Gen.KernelIdeal.Launch
import proofs.«118399_j1486058684815_1_alg».proof.Proof.Gen.KernelIdeal.Points
import proofs.«118399_j1486058684815_1_alg».proof.Proof.Gen.KernelIdeal.Frame
import proofs.«118399_j1486058684815_1_alg».proof.Proof.Gen.ReferenceIdeal
import proofs.«118399_j1486058684815_1_alg».proof.Proof.Gen.Pre_finite_inputs
import proofs.«118399_j1486058684815_1_alg».proof.Proof.KerRun
import proofs.«118399_j1486058684815_1_alg».proof.Proof.KerValue
import proofs.«118399_j1486058684815_1_alg».proof.Proof.RefRun
import proofs.«118399_j1486058684815_1_alg».proof.Proof.RefApply
import proofs.«118399_j1486058684815_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run m ρ)

/-- Both runs end at the normalisation of the network function of the (agreeing) arguments. -/
theorem algebraic : Cert.algebraic_KernelIdeal_ReferenceIdeal := by
  intro m ρ m' ρ' _ hagree
  refine ⟨fun c => Cert.KernelIdeal.Stages.tail (Cert.Gcn.net (Cert.KernelIdeal.Stages.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · exact (θ_run Cert.KernelIdeal.defs _ _).mono
      (fun r h c => ⟨(h c).1.trans (Cert.KernelIdeal.KerValue.result m ρ c), (h c).2⟩)
      (Cert.KernelIdeal.KerRun.run (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8⟩ := hagree c
    rw [h0, h1, h2, h3, h4, h5, h6, h7, h8, Cert.ReferenceIdeal.Stages.out_eq]
    rw [show Cert.ReferenceIdeal.Stages.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Stages.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      from funext fun x => (Cert.Bridge.agg_eq _ _ x).symm]
    exact (Cert.Bridge.tail_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
